-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_arg0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048x2048 .f32) (main_arg12 : FVec F S2048x2048 .f32) (main_arg13 : FVec F S2048x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_v63 main_v67

def fn_part2 {F : FTy → Type} [FloatOps F] (main_arg7 : FVec F S1x2048 .f32) (main_arg8 : FVec F S1x2048 .f32) (main_arg9 : FVec F S1x2048 .f32) (main_arg10 : FVec F S2048x2048 .f32) (main_arg11 : FVec F S2048x2048 .f32) (main_arg12 : FVec F S2048x2048 .f32) (main_arg13 : FVec F S2048x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_v48 main_v49 main_v50

def fn_part1 {F : FTy → Type} [FloatOps F] (main_arg4 : FVec F S8192x2048 .f32) (main_arg5 : FVec F S2048 .f32) (main_arg6 : FVec F S2048 .f32) (main_arg7 : FVec F S1x2048 .f32) (main_arg8 : FVec F S1x2048 .f32) (main_arg9 : FVec F S1x2048 .f32) (main_arg10 : FVec F S2048x2048 .f32) (main_arg11 : FVec F S2048x2048 .f32) (main_arg12 : FVec F S2048x2048 .f32) (main_arg13 : FVec F S2048x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S2048 .f32) (main_arg6 : FVec F S2048 .f32) (main_arg7 : FVec F S1x2048 .f32) (main_arg8 : FVec F S1x2048 .f32) (main_arg9 : FVec F S1x2048 .f32) (main_arg10 : FVec F S2048x2048 .f32) (main_arg11 : FVec F S2048x2048 .f32) (main_arg12 : FVec F S2048x2048 .f32) (main_arg13 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x2048 : Shape := ⟨2, ![8192, 2048]⟩
abbrev S2048 : Shape := ⟨1, ![2048]⟩
abbrev S1x2048 : Shape := ⟨2, ![1, 2048]⟩
abbrev S2048x2048 : Shape := ⟨2, ![2048, 2048]⟩
abbrev S32x2048 : Shape := ⟨2, ![32, 2048]⟩
abbrev S1024x2048 : Shape := ⟨2, ![1024, 2048]⟩

abbrev nBuf : Space → Nat
  | .hbm => 31
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S2048x2048, .f32⟩
  | .hbm, ⟨19, _⟩ => ⟨S2048x2048, .bf16⟩
  | .hbm, ⟨20, _⟩ => ⟨S2048x2048, .f32⟩
  | .hbm, ⟨21, _⟩ => ⟨S2048x2048, .bf16⟩
  | .hbm, ⟨22, _⟩ => ⟨S2048x2048, .f32⟩
  | .hbm, ⟨23, _⟩ => ⟨S2048x2048, .bf16⟩
  | .hbm, ⟨24, _⟩ => ⟨S2048x2048, .f32⟩
  | .hbm, ⟨25, _⟩ => ⟨S2048x2048, .bf16⟩
  | .hbm, ⟨26, _⟩ => ⟨S8192x2048, .bf16⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S32x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S2048x2048, .bf16⟩
  | .local _ .vmem, ⟨16, _⟩ => ⟨S2048x2048, .bf16⟩
  | .local _ .vmem, ⟨17, _⟩ => ⟨S2048x2048, .bf16⟩
  | .local _ .vmem, ⟨18, _⟩ => ⟨S32x2048, .bf16⟩
  | .local _ .vmem, ⟨19, _⟩ => ⟨S32x2048, .bf16⟩
  | .local _ .vmem, ⟨20, _⟩ => ⟨S32x2048, .f32⟩
  | .local _ .vmem, ⟨21, _⟩ => ⟨S32x2048, .f32⟩
  | .local _ .vmem, ⟨22, _⟩ => ⟨S32x2048, .f32⟩
  | .local _ .vmem, ⟨23, _⟩ => ⟨S32x2048, .f32⟩
  | .local _ .vmem, ⟨24, _⟩ => ⟨S32x2048, .f32⟩
  | .local _ .vmem, ⟨25, _⟩ => ⟨S32x2048, .f32⟩
  | .local _ .vmem, ⟨26, _⟩ => ⟨S1024x2048, .bf16⟩
  | .local _ .vmem, ⟨27, _⟩ => ⟨S1024x2048, .bf16⟩
  | .local _ .vmem, ⟨28, _⟩ => ⟨S2048x2048, .bf16⟩
  | .local _ .vmem, ⟨29, _⟩ => ⟨S1024x2048, .f32⟩
  | .local _ .vmem, ⟨30, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg2_0 : Ref sig .tc := ⟨.vmem, 29, rfl⟩
abbrev cc1_stg2_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem2_1 : DmaSem sig := 30

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S2048_S1x2048 : S2048.ShapeCasts S1x2048
  transposes_S2048x2048_S2048x2048_1_0 : S2048x2048.Transposes [1, 0] S2048x2048
  bitsLt_bf16_f32 : FTy.bits .bf16 < FTy.bits .f32
  inb_S32x2048_S32x2048_0_0 : ∀ a, (![0, 0] : Fin 2 → Nat) a + S32x2048.size a ≤ S32x2048.size a
  h_S32x2048 : 0 < S32x2048.numel
  inb_S1x2048_S1x2048_0_0 : ∀ a, (![0, 0] : Fin 2 → Nat) a + S1x2048.size a ≤ S1x2048.size a
  h_S1x2048 : 0 < S1x2048.numel
  broadcasts_S1x2048_S32x2048 : S1x2048.Broadcasts S32x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S1x2048_S1x2048 : S1x2048.ShapeCasts S1x2048
  packedbf16_S32x2048_S32x2048_0_0 : (Rect.unit (s := S32x2048) ![0, 0] S32x2048.size inb_S32x2048_S32x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  dot_S32x2048_S2048x2048_S32x2048_1_0_0_1_n_n_wf : DotDims.WF S32x2048 S2048x2048 S32x2048 [1] [0] [0] [1] [] []
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S8192x2048.size a
  hwx0_0 : ∀ i : grid0.Coords, EltTy.bits .f32 = 32 ∨ (Rect.block (s := S8192x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S8192x2048.size a
  hwx0_1 : ∀ i : grid0.Coords, EltTy.bits .f32 = 32 ∨ (Rect.block (s := S8192x2048) S32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S8192x2048.size a
  hwx0_2 : ∀ i : grid0.Coords, EltTy.bits .f32 = 32 ∨ (Rect.block (s := S8192x2048) S32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x2048.size a ≤ S8192x2048.size a
  hwx0_3 : ∀ i : grid0.Coords, EltTy.bits .f32 = 32 ∨ (Rect.block (s := S8192x2048) S32x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x2048.size a ≤ S8192x2048.size a
  hwx0_4 : ∀ i : grid0.Coords, EltTy.bits .f32 = 32 ∨ (Rect.block (s := S8192x2048) S32x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x2048.size a ≤ S2048x2048.size a
  hwx0_10 : ∀ i : grid0.Coords, EltTy.bits .bf16 = 32 ∨ (Rect.block (s := S2048x2048) S2048x2048.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x2048.size a ≤ S2048x2048.size a
  hwx0_11 : ∀ i : grid0.Coords, EltTy.bits .bf16 = 32 ∨ (Rect.block (s := S2048x2048) S2048x2048.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048x2048.size a ≤ S2048x2048.size a
  hwx0_12 : ∀ i : grid0.Coords, EltTy.bits .bf16 = 32 ∨ (Rect.block (s := S2048x2048) S2048x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x2048.size a ≤ S8192x2048.size a
  hwx0_13 : ∀ i : grid0.Coords, EltTy.bits .bf16 = 32 ∨ (Rect.block (s := S8192x2048) S32x2048.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S32x2048.size a ≤ S8192x2048.size a
  hwx0_14 : ∀ i : grid0.Coords, EltTy.bits .f32 = 32 ∨ (Rect.block (s := S8192x2048) S32x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S32x2048.size a ≤ S8192x2048.size a
  hwx0_15 : ∀ i : grid0.Coords, EltTy.bits .f32 = 32 ∨ (Rect.block (s := S8192x2048) S32x2048.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S32x2048.size a ≤ S8192x2048.size a
  hwx0_16 : ∀ i : grid0.Coords, EltTy.bits .f32 = 32 ∨ (Rect.block (s := S8192x2048) S32x2048.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .bf16 = 32 ∨ (Rect.block (s := S8192x2048) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x2048.size a
  hwx1_2 : ∀ i : grid1.Coords, EltTy.bits .f32 = 32 ∨ (Rect.block (s := S8192x2048) S1024x2048.size (cc1_transform_2 i) (hinb1_2 i)).WholeWords (EltTy.packing .f32)

variable [Facts₀]

def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev win0_0 : Pipeline.Window sig grid0 :=
  Pipeline.Window.ofSpec (Memref.whole main_arg0) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S32x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S2048x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S2048x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S2048x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12_0) S32x2048.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_1) S32x2048.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v12_2) S32x2048.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v12_3) S32x2048.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v12_0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S2048x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S2048x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S2048, .f32⟩
  | .hbm, ⟨72, _⟩ => ⟨S2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S2048x2048, .f32⟩
  | .hbm, ⟨89, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  bcast_S1x2048_S8192x2048_0_1 : S1x2048.BroadcastsInDim S8192x2048 (![0, 1] : Fin 2 → Fin S8192x2048.rank)
  bcast_S_S1x2048 : S_.BroadcastsInDim S1x2048 (![] : Fin 0 → Fin S1x2048.rank)
  transposes_S2048x2048_S2048x2048_1_0 : S2048x2048.Transposes [1, 0] S2048x2048
  bcast_S_S8192x2048 : S_.BroadcastsInDim S8192x2048 (![] : Fin 0 → Fin S8192x2048.rank)
  bcast_S2048_S1x2048_1 : S2048.BroadcastsInDim S1x2048 (![1] : Fin 1 → Fin S1x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The single-step RWKV time-mix update, written once over the extended reals.

  Inputs: the token `x`, the previous token `sx`, the running numerator `sA`, denominator `sB` and exponent `sp`
  (all `8192 × 2048`), the per-channel decay `td` and bonus `tf`, the three mixing rows and the four square weight
  matrices. Every projection is `(x ⊙ tm + sx ⊙ (1 − tm)) · Wᵀ`: entry `(i, j)` is the sum over `e` of the mixed
  token at `(i, e)` times `W (j, e)`. The receptance goes through the hard sigmoid `min 1 (max 0 (r / 6 + 1/2))`.
  With `ww = tf + k` the read-out is `r · a / b`, where `a` and `b` are the numerator and denominator
  re-weighted at the common exponent `max sp ww`; the stored state is the same re-weighting at
  `max (sp − e^td) k`. The output is the read-out times `Woᵀ`.
  The literals stay the binary32 words both programs spell.
-/
import Idealize.ShloMosaic.PureOps.Ideal
import Idealize.ShloMosaic.Lib.ValueIdx

noncomputable section

namespace Cert.Spec

open Idealize.ShloMosaic Idealize.ShloMosaic.ValueIdx

/-- An `a × b` array of extended reals. -/
abbrev Mat (a b : Nat) : Type := (⟨2, ![a, b]⟩ : Shape).Idx → EReal
/-- A length-`a` array of extended reals. -/
abbrev Vct (a : Nat) : Type := (⟨1, ![a]⟩ : Shape).Idx → EReal

/-- The arguments, in the order both programs take them. -/
structure Inp where
  x : Mat 8192 2048
  sA : Mat 8192 2048
  sB : Mat 8192 2048
  sp : Mat 8192 2048
  sx : Mat 8192 2048
  td : Vct 2048
  tf : Vct 2048
  tmk : Mat 1 2048
  tmv : Mat 1 2048
  tmr : Mat 1 2048
  wk : Mat 2048 2048
  wv : Mat 2048 2048
  wr : Mat 2048 2048
  wo : Mat 2048 2048

def one : EReal := Ideal.ofBits .f32 0x3F800000#32
def zero : EReal := Ideal.ofBits .f32 0x00000000#32
def six : EReal := Ideal.ofBits .f32 0x40C00000#32
def half : EReal := Ideal.ofBits .f32 0x3F000000#32

/-- The token mixed with the previous one at rate `tm`. -/
def mix (x sx tm : EReal) : EReal := x * tm + sx * (one - tm)

/-- A projection's entry from the two token rows, the mixing row and the weight's row `j`. -/
def projRow (x sx tm w : Fin 2048 → EReal) : EReal := ∑ e : Fin 2048, mix (x e) (sx e) (tm e) * w e

/-- Entry `(i, j)` of `(x ⊙ tm + sx ⊙ (1 − tm)) · Wᵀ`. -/
def proj (X SX : Mat 8192 2048) (TM : Mat 1 2048) (W : Mat 2048 2048) (i : Fin 8192) (j : Fin 2048) : EReal :=
  projRow (fun e => X (ix2 i e)) (fun e => SX (ix2 i e)) (fun e => TM (ix2 (0 : Fin 1) e)) (fun e => W (ix2 j e))

/-- The hard sigmoid. -/
def hsig (r : EReal) : EReal := min one (max zero (Ideal.div r six + half))

/-- A state `s` held at exponent `p` and a new term `v` at exponent `q`, summed at the common exponent `max p q`. -/
def num (p q s v : EReal) : EReal := Ideal.exp (p - max p q) * s + Ideal.exp (q - max p q) * v
/-- The same for the normaliser, whose new term is one. -/
def den (p q s : EReal) : EReal := Ideal.exp (p - max p q) * s + Ideal.exp (q - max p q)

variable (I : Inp)

def kAt (i : Fin 8192) (j : Fin 2048) : EReal := proj I.x I.sx I.tmk I.wk i j
def vAt (i : Fin 8192) (j : Fin 2048) : EReal := proj I.x I.sx I.tmv I.wv i j
def rAt (i : Fin 8192) (j : Fin 2048) : EReal := hsig (proj I.x I.sx I.tmr I.wr i j)
/-- The state's exponent after the decay `−e^td`. -/
def decayed (i : Fin 8192) (j : Fin 2048) : EReal := I.sp (ix2 i j) + -(Ideal.exp (I.td (ix1 j)))
/-- The current token's exponent with the bonus. -/
def bonus (i : Fin 8192) (j : Fin 2048) : EReal := I.tf (ix1 j) + kAt I i j

def newAAt (i : Fin 8192) (j : Fin 2048) : EReal := num (decayed I i j) (kAt I i j) (I.sA (ix2 i j)) (vAt I i j)
def newBAt (i : Fin 8192) (j : Fin 2048) : EReal := den (decayed I i j) (kAt I i j) (I.sB (ix2 i j))
def newPAt (i : Fin 8192) (j : Fin 2048) : EReal := max (decayed I i j) (kAt I i j)
/-- The read-out `r · a / b` before the output projection. -/
def preAt (i : Fin 8192) (j : Fin 2048) : EReal :=
  Ideal.div (rAt I i j * num (I.sp (ix2 i j)) (bonus I i j) (I.sA (ix2 i j)) (vAt I i j))
    (den (I.sp (ix2 i j)) (bonus I i j) (I.sB (ix2 i j)))
def rwkvAt (i : Fin 8192) (j : Fin 2048) : EReal := ∑ e : Fin 2048, preAt I i e * I.wo (ix2 j e)

/-- The four computed results as arrays (the fifth result is `x` itself). -/
def newA : Mat 8192 2048 := fun i => newAAt I (i 0) (i 1)
def newB : Mat 8192 2048 := fun i => newBAt I (i 0) (i 1)
def newP : Mat 8192 2048 := fun i => newPAt I (i 0) (i 1)
def pre : Mat 8192 2048 := fun i => preAt I (i 0) (i 1)
def rwkv : Mat 8192 2048 := fun i => rwkvAt I (i 0) (i 1)

theorem newA_ix2 (i : Fin 8192) (j : Fin 2048) : newA I (ix2 i j) = newAAt I i j := rfl
theorem newB_ix2 (i : Fin 8192) (j : Fin 2048) : newB I (ix2 i j) = newBAt I i j := rfl
theorem newP_ix2 (i : Fin 8192) (j : Fin 2048) : newP I (ix2 i j) = newPAt I i j := rfl
theorem pre_ix2 (i : Fin 8192) (j : Fin 2048) : pre I (ix2 i j) = preAt I i j := rfl
theorem rwkv_ix2 (i : Fin 8192) (j : Fin 2048) : rwkv I (ix2 i j) = rwkvAt I i j := rfl

end Cert.Spec

end
-- ==== Proof.KRun.lean ====
/-
  The run of the two-region program with every buffer named at its exit.

  Every weakly fair execution from a memory with zero counters terminates without a fault, and in the final state
  each unscoped buffer of the TensorCore holds the contents the fold through the program gives it: the host
  operations' results, then each region's arrays at what its write-backs leave. A consequence `Q` of that is what
  the run establishes.
-/
import proofs.«105133_j6536940224802_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the final memory read at every unscoped buffer. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

end Cert.KernelIdeal.KRun

end
-- ==== Proof.HostVals.lean ====
/-
  What the host operations before the first region leave.

  Twelve operations run before the first region. None of them writes an argument, so the eight arguments the regions
  read are still the launch contents. The decay vector is placed as a one-row matrix, exponentiated and negated; the
  bonus vector is placed as a one-row matrix; each of the four square weights is transposed and then converted,
  which over the extended reals changes nothing, so the converted buffer at (e, q) holds the weight at (q, e).
-/
import proofs.«105133_j6536940224802_2_alg».proof.Proof.Gen.KernelIdeal.Frame
import Idealize.ShloMosaic.Lib.StableHlo.Run
import Idealize.ShloMosaic.Lib.ValueIdx
import Idealize.ShloMosaic.Lib.ValueLayout

set_option maxRecDepth 16384

noncomputable section

namespace Cert.KernelIdeal.HostVals

open Cert.KernelIdeal Cert.KernelIdeal.Gen Idealize.ShloMosaic Idealize.ShloMosaic.ValueIdx Idealize.ShloMosaic.TcCoe
  Idealize.SL.Sem Idealize.ShloMosaic.StableHlo

variable (m : (ℓ : Loc nD τ sig) → Buf (Elt Ideal) ℓ) (ρ : Dev nD → PrngReg) (c : Dev nD)

/-! ### The arguments are as launched -/

theorem V1_arg0 : V1 m ρ c main_arg0 = m ((c : Thread nD τ).loc main_arg0) := by
  show StableHlo.after hostOps0 (W0 m ρ c) (Proc.devRef .tc main_arg0) = _
  after_results
theorem V1_arg1 : V1 m ρ c main_arg1 = m ((c : Thread nD τ).loc main_arg1) := by
  show StableHlo.after hostOps0 (W0 m ρ c) (Proc.devRef .tc main_arg1) = _
  after_results
theorem V1_arg2 : V1 m ρ c main_arg2 = m ((c : Thread nD τ).loc main_arg2) := by
  show StableHlo.after hostOps0 (W0 m ρ c) (Proc.devRef .tc main_arg2) = _
  after_results
theorem V1_arg3 : V1 m ρ c main_arg3 = m ((c : Thread nD τ).loc main_arg3) := by
  show StableHlo.after hostOps0 (W0 m ρ c) (Proc.devRef .tc main_arg3) = _
  after_results
theorem V1_arg4 : V1 m ρ c main_arg4 = m ((c : Thread nD τ).loc main_arg4) := by
  show StableHlo.after hostOps0 (W0 m ρ c) (Proc.devRef .tc main_arg4) = _
  after_results
theorem V1_arg7 : V1 m ρ c main_arg7 = m ((c : Thread nD τ).loc main_arg7) := by
  show StableHlo.after hostOps0 (W0 m ρ c) (Proc.devRef .tc main_arg7) = _
  after_results
theorem V1_arg8 : V1 m ρ c main_arg8 = m ((c : Thread nD τ).loc main_arg8) := by
  show StableHlo.after hostOps0 (W0 m ρ c) (Proc.devRef .tc main_arg8) = _
  after_results
theorem V1_arg9 : V1 m ρ c main_arg9 = m ((c : Thread nD τ).loc main_arg9) := by
  show StableHlo.after hostOps0 (W0 m ρ c) (Proc.devRef .tc main_arg9) = _
  after_results

/-! ### The buffers the operations write, as arrays -/

theorem V1_v3 : (V1 m ρ c main_v3 : S1x2048.Idx → EReal)
    = Host.negf (F := Ideal) (φ := .f32) (Host.exp (F := Ideal) (φ := .f32)
        (shapeCast S1x2048 (m ((c : Thread nD τ).loc main_arg5)) shapeCasts_S2048_S1x2048)) := by
  show StableHlo.after hostOps0 (W0 m ρ c) (Proc.devRef .tc main_v3) = _
  after_results
  rfl

theorem V1_v1 : (V1 m ρ c main_v1 : S1x2048.Idx → EReal)
    = shapeCast S1x2048 (m ((c : Thread nD τ).loc main_arg6)) shapeCasts_S2048_S1x2048 := by
  show StableHlo.after hostOps0 (W0 m ρ c) (Proc.devRef .tc main_v1) = _
  after_results
  rfl

theorem V1_v5 : (V1 m ρ c main_v5 : S2048x2048.Idx → EReal)
    = truncf (F := Ideal) .bf16 (transpose S2048x2048 [1, 0] (m ((c : Thread nD τ).loc main_arg10))
        transposes_S2048x2048_S2048x2048_1_0) bitsLt_bf16_f32 := by
  show StableHlo.after hostOps0 (W0 m ρ c) (Proc.devRef .tc main_v5) = _
  after_results

theorem V1_v7 : (V1 m ρ c main_v7 : S2048x2048.Idx → EReal)
    = truncf (F := Ideal) .bf16 (transpose S2048x2048 [1, 0] (m ((c : Thread nD τ).loc main_arg11))
        transposes_S2048x2048_S2048x2048_1_0) bitsLt_bf16_f32 := by
  show StableHlo.after hostOps0 (W0 m ρ c) (Proc.devRef .tc main_v7) = _
  after_results

theorem V1_v9 : (V1 m ρ c main_v9 : S2048x2048.Idx → EReal)
    = truncf (F := Ideal) .bf16 (transpose S2048x2048 [1, 0] (m ((c : Thread nD τ).loc main_arg12))
        transposes_S2048x2048_S2048x2048_1_0) bitsLt_bf16_f32 := by
  show StableHlo.after hostOps0 (W0 m ρ c) (Proc.devRef .tc main_v9) = _
  after_results

theorem V1_v11 : (V1 m ρ c main_v11 : S2048x2048.Idx → EReal)
    = truncf (F := Ideal) .bf16 (transpose S2048x2048 [1, 0] (m ((c : Thread nD τ).loc main_arg13))
        transposes_S2048x2048_S2048x2048_1_0) bitsLt_bf16_f32 := by
  show StableHlo.after hostOps0 (W0 m ρ c) (Proc.devRef .tc main_v11) = _
  after_results

/-! ### The same, entry by entry -/

/-- The negated exponential of the decay, as a one-row matrix. -/
theorem V1_v3_at (q : Fin 2048) :
    V1 m ρ c main_v3 (ix2 (0 : Fin 1) q) = -(Ideal.exp (m ((c : Thread nD τ).loc main_arg5) (ix1 q))) := by
  refine (congrFun (V1_v3 m ρ c) (ix2 (0 : Fin 1) q)).trans ?_
  show -(Ideal.exp (shapeCast S1x2048 (m ((c : Thread nD τ).loc main_arg5)) shapeCasts_S2048_S1x2048
    (ix2 (0 : Fin 1) q))) = _
  rw [shapeCast_a_1a_apply]

/-- The bonus, as a one-row matrix. -/
theorem V1_v1_at (q : Fin 2048) :
    V1 m ρ c main_v1 (ix2 (0 : Fin 1) q) = m ((c : Thread nD τ).loc main_arg6) (ix1 q) := by
  refine (congrFun (V1_v1 m ρ c) (ix2 (0 : Fin 1) q)).trans ?_
  rw [shapeCast_a_1a_apply]

/-- The transposed key weight. -/
theorem V1_v5_at (e q : Fin 2048) :
    V1 m ρ c main_v5 (ix2 e q) = m ((c : Thread nD τ).loc main_arg10) (ix2 q e) := by
  refine (congrFun (V1_v5 m ρ c) (ix2 e q)).trans ?_
  rw [truncf_apply, transpose_ix2_apply]

/-- The transposed value weight. -/
theorem V1_v7_at (e q : Fin 2048) :
    V1 m ρ c main_v7 (ix2 e q) = m ((c : Thread nD τ).loc main_arg11) (ix2 q e) := by
  refine (congrFun (V1_v7 m ρ c) (ix2 e q)).trans ?_
  rw [truncf_apply, transpose_ix2_apply]

/-- The transposed receptance weight. -/
theorem V1_v9_at (e q : Fin 2048) :
    V1 m ρ c main_v9 (ix2 e q) = m ((c : Thread nD τ).loc main_arg12) (ix2 q e) := by
  refine (congrFun (V1_v9 m ρ c) (ix2 e q)).trans ?_
  rw [truncf_apply, transpose_ix2_apply]

/-- The transposed output weight. -/
theorem V1_v11_at (e q : Fin 2048) :
    V1 m ρ c main_v11 (ix2 e q) = m ((c : Thread nD τ).loc main_arg13) (ix2 q e) := by
  refine (congrFun (V1_v11 m ρ c) (ix2 e q)).trans ?_
  rw [truncf_apply, transpose_ix2_apply]

end Cert.KernelIdeal.HostVals

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Body0.lean ====
/-
  What the first kernel's body leaves in its four output blocks, entry by entry.

  The body sees a block of 32 token rows (`x0` the tokens, `x1` the previous tokens, `x2`, `x3`, `x4` the state's
  numerator, denominator and exponent), the three mixing rows `x5`, `x6`, `x7`, the decay row `x8`, the bonus row `x9`
  and the three transposed weight matrices `x10`, `x11`, `x12`. Entry `(p, q)` of each stored block depends on row
  `p` of the row blocks, on the rows of the `[1, 2048]` operands, and on column `q` of the weights: the three matrix
  products are sums over the 2048 channels, everything else is pointwise.
-/
import proofs.«105133_j6536940224802_2_alg».proof.Proof.Gen.KernelIdeal.Frame
import proofs.«105133_j6536940224802_2_alg».proof.Proof.Spec
import proofs.«105133_j6536940224802_2_alg».proof.Proof.LibPlainDot
import Idealize.ShloMosaic.Lib.ValueIdx
import Idealize.ShloMosaic.Lib.ValueLayout
import Idealize.ShloMosaic.Lib.Pipeline.Value

noncomputable section

namespace Cert.KernelIdeal.Body0

open Cert.KernelIdeal Cert.KernelIdeal.Gen Idealize.ShloMosaic Idealize.ShloMosaic.ValueIdx Idealize.ShloMosaic.TcCoe

theorem hz : (![0, 0] : Fin 2 → Nat) = fun _ => 0 := funext fun a => by fin_cases a <;> rfl

/-- Row `p` of a block of rows. -/
def rowOf (x : Vec Ideal S32x2048 .f32) (p : Fin 32) : Fin 2048 → EReal := fun e => x (ix2 p e)
/-- The one row of a `[1, 2048]` operand. -/
def row1 (x : Vec Ideal S1x2048 .f32) : Fin 2048 → EReal := fun e => x (ix2 (0 : Fin 1) e)
/-- Column `q` of a transposed weight matrix. -/
def colOf (w : Vec Ideal S2048x2048 .bf16) (q : Fin 2048) : Fin 2048 → EReal := fun e => w (ix2 e q)

variable (x0 x1 x2 x3 x4 : Vec Ideal S32x2048 .f32) (x5 x6 x7 x8 x9 : Vec Ideal S1x2048 .f32)
  (x10 x11 x12 : Vec Ideal S2048x2048 .bf16) (p : Fin 32) (q : Fin 2048)

/-- The mixed token at `(p, e)`. -/
theorem mixed_at (tm : Vec Ideal S1x2048 .f32) (e : Fin 2048) :
    (addf (mulf x0 (broadcastTo S32x2048 tm broadcasts_S1x2048_S32x2048))
      (mulf x1 (broadcastTo S32x2048 (subf (broadcast S1x2048 (Scalar.ofBits (F := Ideal) .f32 0x3F800000#32)) tm) broadcasts_S1x2048_S32x2048))
        : FVec Ideal S32x2048 .f32) (ix2 p e)
      = Spec.mix (x0 (ix2 p e)) (x1 (ix2 p e)) (tm (ix2 (0 : Fin 1) e)) := by
  show x0 (ix2 p e) * broadcastTo S32x2048 tm broadcasts_S1x2048_S32x2048 (ix2 p e)
      + x1 (ix2 p e) * broadcastTo S32x2048 (subf (broadcast S1x2048 (Scalar.ofBits (F := Ideal) .f32 0x3F800000#32)) tm) broadcasts_S1x2048_S32x2048 (ix2 p e) = _
  rw [broadcastTo_1b_ab_apply, broadcastTo_1b_ab_apply]
  rfl

/-- The key projection: a sum over the channels. -/
theorem pay2_at : k0_pay2 (F := Ideal) x0 x1 x5 x10 (ix2 p q) = Spec.projRow (rowOf x0 p) (rowOf x1 p) (row1 x5) (colOf x10 q) := by
  unfold k0_pay2
  rw [shapeCast_self]
  refine (Cert.Lib.plain_matmul_zero_apply 32 2048 2048 (φ₁ := .bf16) (φ₂ := .bf16) none _ _ p q).trans ?_
  unfold Spec.projRow
  refine Finset.sum_congr rfl fun e _ => ?_
  refine congrArg (· * x10 (ix2 e q)) ?_
  exact mixed_at x0 x1 p x5 e

/-- The value projection. -/
theorem pay3_at : k0_pay3 (F := Ideal) x0 x1 x6 x11 (ix2 p q) = Spec.projRow (rowOf x0 p) (rowOf x1 p) (row1 x6) (colOf x11 q) := by
  unfold k0_pay3
  rw [shapeCast_self]
  refine (Cert.Lib.plain_matmul_zero_apply 32 2048 2048 (φ₁ := .bf16) (φ₂ := .bf16) none _ _ p q).trans ?_
  unfold Spec.projRow
  refine Finset.sum_congr rfl fun e _ => ?_
  refine congrArg (· * x11 (ix2 e q)) ?_
  exact mixed_at x0 x1 p x6 e

/-- The mixed token for the receptance. -/
theorem pay4_at (e : Fin 2048) : k0_pay4 (F := Ideal) x0 x1 x7 (ix2 p e) = Spec.mix (x0 (ix2 p e)) (x1 (ix2 p e)) (x7 (ix2 (0 : Fin 1) e)) := by
  unfold k0_pay4
  exact mixed_at x0 x1 p x7 e

/-- A product with a weight matrix, through the hard sigmoid. -/
theorem pay6_at (v34 : FVec Ideal S32x2048 .bf16) (v36 : FVec Ideal S2048x2048 .bf16) :
    k0_pay6 (F := Ideal) v34 v36 (constant S32x2048 .f32 0x00000000#32) (ix2 p q)
      = Spec.hsig (∑ e : Fin 2048, v34 (ix2 p e) * v36 (ix2 e q)) := by
  unfold k0_pay6
  show min Spec.one (max Spec.zero (Ideal.div (matmul (F := Ideal) dot_S32x2048_S2048x2048_S32x2048_1_0_0_1_n_n none v34 v36 (constant S32x2048 .f32 0x00000000#32) (ix2 p q)) Spec.six + Spec.half)) = _
  unfold Spec.hsig
  refine congrArg (fun z => min Spec.one (max Spec.zero (Ideal.div z Spec.six + Spec.half))) ?_
  exact Cert.Lib.plain_matmul_zero_apply 32 2048 2048 (φ₁ := .bf16) (φ₂ := .bf16) none v34 v36 p q

/-- The receptance projection through the hard sigmoid. -/
theorem pay6_proj : k0_pay6 (F := Ideal) (k0_pay4 x0 x1 x7) (k0_pay5 x12) (constant S32x2048 .f32 0x00000000#32) (ix2 p q)
    = Spec.hsig (Spec.projRow (rowOf x0 p) (rowOf x1 p) (row1 x7) (colOf x12 q)) := by
  rw [pay6_at]
  unfold Spec.projRow k0_pay5
  rw [shapeCast_self]
  refine congrArg Spec.hsig (Finset.sum_congr rfl fun e _ => ?_)
  rw [pay4_at]
  rfl

/-! ## The pointwise part -/

section Pointwise

variable (v29 v33 v45 v60 v62 : FVec Ideal S32x2048 .f32) (v48 v49 v50 : Vec Ideal S32x2048 .f32) (v46 v63 : Vec Ideal S1x2048 .f32)
  (j : S32x2048.Idx)

/-- The state's exponent with the decay row added. -/
theorem pay13_at : k0_pay13 (F := Ideal) v50 v63 (ix2 p q) = v50 (ix2 p q) + v63 (ix2 (0 : Fin 1) q) := by
  unfold k0_pay13
  rw [shapeCast_self]
  show v50 (ix2 p q) + broadcastTo S32x2048 v63 broadcasts_S1x2048_S32x2048 (ix2 p q) = _
  rw [broadcastTo_1b_ab_apply]

/-- The key with the bonus row added. -/
theorem pay7_at : k0_pay7 (F := Ideal) v29 v46 (ix2 p q) = v46 (ix2 (0 : Fin 1) q) + v29 (ix2 p q) := by
  unfold k0_pay7
  rw [shapeCast_self]
  show broadcastTo S32x2048 v46 broadcasts_S1x2048_S32x2048 (ix2 p q) + v29 (ix2 p q) = _
  rw [broadcastTo_1b_ab_apply]

theorem pay14_at : k0_pay14 (F := Ideal) v29 v50 v63 j = max (k0_pay13 (F := Ideal) v50 v63 j) (v29 j) := rfl
theorem pay17_at : k0_pay17 (F := Ideal) v29 v33 v48 v50 v63 j
    = Spec.num (k0_pay13 (F := Ideal) v50 v63 j) (v29 j) (v48 j) (v33 j) := rfl
theorem pay18_at : k0_pay18 (F := Ideal) v29 v49 v50 v63 j
    = Spec.den (k0_pay13 (F := Ideal) v50 v63 j) (v29 j) (v49 j) := rfl
theorem pay11_at : k0_pay11 (F := Ideal) v29 v33 v46 v48 v50 j
    = Spec.num (v50 j) (k0_pay7 (F := Ideal) v29 v46 j) (v48 j) (v33 j) := rfl
theorem pay12_at : k0_pay12 (F := Ideal) v29 v46 v49 v50 j
    = Spec.den (v50 j) (k0_pay7 (F := Ideal) v29 v46 j) (v49 j) := rfl
theorem pay1_at : k0_pay1 (F := Ideal) v45 v60 v62 j = Ideal.div (v45 j * v60 j) (v62 j) := rfl

end Pointwise

/-! ## The four stored blocks -/

/-- The key at `(p, q)`. -/
def kB : EReal := Spec.projRow (rowOf x0 p) (rowOf x1 p) (row1 x5) (colOf x10 q)
/-- The value at `(p, q)`. -/
def vB : EReal := Spec.projRow (rowOf x0 p) (rowOf x1 p) (row1 x6) (colOf x11 q)
/-- The receptance at `(p, q)`. -/
def rB : EReal := Spec.hsig (Spec.projRow (rowOf x0 p) (rowOf x1 p) (row1 x7) (colOf x12 q))

/-- The new exponent. -/
theorem out16_at : out0_16 (F := Ideal) x0 x1 x2 x3 x4 x5 x6 x7 x8 x9 x10 x11 x12 (ix2 p q)
    = max (x4 (ix2 p q) + x8 (ix2 (0 : Fin 1) q)) (kB x0 x1 x5 x10 p q) := by
  unfold out0_16
  rw [View.canon_unit_zero hz]
  simp only [View.ld_unit_zero (S := S32x2048) hz, View.ld_unit_zero (S := S1x2048) hz, View.ld_unit_zero (S := S2048x2048) hz]
  rw [pay14_at, pay13_at, pay2_at]
  rfl

/-- The new numerator. -/
theorem out14_at : out0_14 (F := Ideal) x0 x1 x2 x3 x4 x5 x6 x7 x8 x9 x10 x11 x12 (ix2 p q)
    = Spec.num (x4 (ix2 p q) + x8 (ix2 (0 : Fin 1) q)) (kB x0 x1 x5 x10 p q) (x2 (ix2 p q)) (vB x0 x1 x6 x11 p q) := by
  unfold out0_14
  rw [View.canon_unit_zero hz]
  simp only [View.ld_unit_zero (S := S32x2048) hz, View.ld_unit_zero (S := S1x2048) hz, View.ld_unit_zero (S := S2048x2048) hz]
  rw [pay17_at, pay13_at, pay2_at, pay3_at]
  rfl

/-- The new denominator. -/
theorem out15_at : out0_15 (F := Ideal) x0 x1 x2 x3 x4 x5 x6 x7 x8 x9 x10 x11 x12 (ix2 p q)
    = Spec.den (x4 (ix2 p q) + x8 (ix2 (0 : Fin 1) q)) (kB x0 x1 x5 x10 p q) (x3 (ix2 p q)) := by
  unfold out0_15
  rw [View.canon_unit_zero hz]
  simp only [View.ld_unit_zero (S := S32x2048) hz, View.ld_unit_zero (S := S1x2048) hz, View.ld_unit_zero (S := S2048x2048) hz]
  rw [pay18_at, pay13_at, pay2_at]
  rfl

/-- The read-out. -/
theorem out13_at : out0_13 (F := Ideal) x0 x1 x2 x3 x4 x5 x6 x7 x8 x9 x10 x11 x12 (ix2 p q)
    = Ideal.div (rB x0 x1 x7 x12 p q
        * Spec.num (x4 (ix2 p q)) (x9 (ix2 (0 : Fin 1) q) + kB x0 x1 x5 x10 p q) (x2 (ix2 p q)) (vB x0 x1 x6 x11 p q))
      (Spec.den (x4 (ix2 p q)) (x9 (ix2 (0 : Fin 1) q) + kB x0 x1 x5 x10 p q) (x3 (ix2 p q))) := by
  unfold out0_13
  rw [View.canon_unit_zero hz]
  simp only [View.ld_unit_zero (S := S32x2048) hz, View.ld_unit_zero (S := S1x2048) hz, View.ld_unit_zero (S := S2048x2048) hz]
  rw [pay1_at, pay6_proj, pay11_at, pay12_at, pay7_at, pay2_at, pay3_at]
  rfl

end Cert.KernelIdeal.Body0

end
-- ==== Proof.Region0.lean ====
/-
  The first region, read as arrays.

  The grid has 256 points; point `t` works on rows `32 t … 32 t + 31` of the five row arrays and of the four results, and
  sees the five `[1, 2048]` rows and the three weight matrices whole. Read through the blocks, what the body stores
  at point `t` is block `t` of one whole-array function of the region's entry contents — the read-out, the new
  numerator, denominator and exponent of the time-mix step — and the 256 blocks tile each result, so each result
  array ends holding that function.
-/
import proofs.«105133_j6536940224802_2_alg».proof.Proof.Gen.KernelIdeal.Frame
import proofs.«105133_j6536940224802_2_alg».proof.Proof.Spec
import proofs.«105133_j6536940224802_2_alg».proof.Proof.Body0
import Idealize.ShloMosaic.Lib.ValueIdx
import Idealize.ShloMosaic.Lib.Pipeline.Value

set_option maxRecDepth 16384

noncomputable section

namespace Cert.KernelIdeal.Region0

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- The printed index maps over the grid: a row window's block index is the point's number on the row axis and zero on
    the channel axis. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- A resident operand's block index is zero on both axes at every point. -/
theorem idx_resident : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The row of the whole array that row `p` of point `t`'s block is. -/
def rowAt (t : Fin cfg0.N) (p : Fin 32) : Fin 8192 :=
  ⟨32 * t.val + p.val, by have h1 := t.isLt; have h2 := p.isLt; have hN : cfg0.N = 256 := N_0; show _ < 8192; omega⟩

/-! ## Block reads -/

theorem blk0 (c : Dev nD) (t : Fin cfg0.N) (p : Fin 32) (e : Fin 2048) :
    iblk0 V c 0 t (ix2 p e) = V c main_arg0 (ix2 (rowAt t p) e) := by
  obtain ⟨⟨e0, e1⟩, -, -, -, -, -, -, -, -⟩ := idx_rows t
  show V c main_arg0 (((cfg0.win 0).blk t).view.emb (ix2 p e)) = _
  refine congrArg (V c main_arg0) (funext fun a => Fin.ext ?_)
  match a with
  | ⟨0, _⟩ => show win0_0.index t (0 : Fin 2) * 32 + 1 * p.val = 32 * t.val + p.val; omega
  | ⟨1, _⟩ => show win0_0.index t (1 : Fin 2) * 2048 + 1 * e.val = e.val; omega

theorem blk1 (c : Dev nD) (t : Fin cfg0.N) (p : Fin 32) (e : Fin 2048) :
    iblk0 V c 1 t (ix2 p e) = V c main_arg4 (ix2 (rowAt t p) e) := by
  obtain ⟨-, ⟨e0, e1⟩, -, -, -, -, -, -, -⟩ := idx_rows t
  show V c main_arg4 (((cfg0.win 1).blk t).view.emb (ix2 p e)) = _
  refine congrArg (V c main_arg4) (funext fun a => Fin.ext ?_)
  match a with
  | ⟨0, _⟩ => show win0_1.index t (0 : Fin 2) * 32 + 1 * p.val = 32 * t.val + p.val; omega
  | ⟨1, _⟩ => show win0_1.index t (1 : Fin 2) * 2048 + 1 * e.val = e.val; omega

theorem blk2 (c : Dev nD) (t : Fin cfg0.N) (p : Fin 32) (e : Fin 2048) :
    iblk0 V c 2 t (ix2 p e) = V c main_arg1 (ix2 (rowAt t p) e) := by
  obtain ⟨-, -, ⟨e0, e1⟩, -, -, -, -, -, -⟩ := idx_rows t
  show V c main_arg1 (((cfg0.win 2).blk t).view.emb (ix2 p e)) = _
  refine congrArg (V c main_arg1) (funext fun a => Fin.ext ?_)
  match a with
  | ⟨0, _⟩ => show win0_2.index t (0 : Fin 2) * 32 + 1 * p.val = 32 * t.val + p.val; omega
  | ⟨1, _⟩ => show win0_2.index t (1 : Fin 2) * 2048 + 1 * e.val = e.val; omega

theorem blk3 (c : Dev nD) (t : Fin cfg0.N) (p : Fin 32) (e : Fin 2048) :
    iblk0 V c 3 t (ix2 p e) = V c main_arg2 (ix2 (rowAt t p) e) := by
  obtain ⟨-, -, -, ⟨e0, e1⟩, -, -, -, -, -⟩ := idx_rows t
  show V c main_arg2 (((cfg0.win 3).blk t).view.emb (ix2 p e)) = _
  refine congrArg (V c main_arg2) (funext fun a => Fin.ext ?_)
  match a with
  | ⟨0, _⟩ => show win0_3.index t (0 : Fin 2) * 32 + 1 * p.val = 32 * t.val + p.val; omega
  | ⟨1, _⟩ => show win0_3.index t (1 : Fin 2) * 2048 + 1 * e.val = e.val; omega

theorem blk4 (c : Dev nD) (t : Fin cfg0.N) (p : Fin 32) (e : Fin 2048) :
    iblk0 V c 4 t (ix2 p e) = V c main_arg3 (ix2 (rowAt t p) e) := by
  obtain ⟨-, -, -, -, ⟨e0, e1⟩, -, -, -, -⟩ := idx_rows t
  show V c main_arg3 (((cfg0.win 4).blk t).view.emb (ix2 p e)) = _
  refine congrArg (V c main_arg3) (funext fun a => Fin.ext ?_)
  match a with
  | ⟨0, _⟩ => show win0_4.index t (0 : Fin 2) * 32 + 1 * p.val = 32 * t.val + p.val; omega
  | ⟨1, _⟩ => show win0_4.index t (1 : Fin 2) * 2048 + 1 * e.val = e.val; omega

theorem blk5 (c : Dev nD) (t : Fin cfg0.N) (e : Fin 2048) :
    iblk0 V c 5 t (ix2 (0 : Fin 1) e) = V c main_arg7 (ix2 (0 : Fin 1) e) := by
  obtain ⟨⟨e0, e1⟩, -, -, -, -, -, -, -⟩ := idx_resident t
  show V c main_arg7 (((cfg0.win 5).blk t).view.emb (ix2 (0 : Fin 1) e)) = _
  refine congrArg (V c main_arg7) (funext fun a => Fin.ext ?_)
  match a with
  | ⟨0, _⟩ => show win0_5.index t (0 : Fin 2) * 1 + 1 * 0 = 0; omega
  | ⟨1, _⟩ => show win0_5.index t (1 : Fin 2) * 2048 + 1 * e.val = e.val; omega

theorem blk6 (c : Dev nD) (t : Fin cfg0.N) (e : Fin 2048) :
    iblk0 V c 6 t (ix2 (0 : Fin 1) e) = V c main_arg8 (ix2 (0 : Fin 1) e) := by
  obtain ⟨-, ⟨e0, e1⟩, -, -, -, -, -, -⟩ := idx_resident t
  show V c main_arg8 (((cfg0.win 6).blk t).view.emb (ix2 (0 : Fin 1) e)) = _
  refine congrArg (V c main_arg8) (funext fun a => Fin.ext ?_)
  match a with
  | ⟨0, _⟩ => show win0_6.index t (0 : Fin 2) * 1 + 1 * 0 = 0; omega
  | ⟨1, _⟩ => show win0_6.index t (1 : Fin 2) * 2048 + 1 * e.val = e.val; omega

theorem blk7 (c : Dev nD) (t : Fin cfg0.N) (e : Fin 2048) :
    iblk0 V c 7 t (ix2 (0 : Fin 1) e) = V c main_arg9 (ix2 (0 : Fin 1) e) := by
  obtain ⟨-, -, ⟨e0, e1⟩, -, -, -, -, -⟩ := idx_resident t
  show V c main_arg9 (((cfg0.win 7).blk t).view.emb (ix2 (0 : Fin 1) e)) = _
  refine congrArg (V c main_arg9) (funext fun a => Fin.ext ?_)
  match a with
  | ⟨0, _⟩ => show win0_7.index t (0 : Fin 2) * 1 + 1 * 0 = 0; omega
  | ⟨1, _⟩ => show win0_7.index t (1 : Fin 2) * 2048 + 1 * e.val = e.val; omega

theorem blk8 (c : Dev nD) (t : Fin cfg0.N) (e : Fin 2048) :
    iblk0 V c 8 t (ix2 (0 : Fin 1) e) = V c main_v3 (ix2 (0 : Fin 1) e) := by
  obtain ⟨-, -, -, ⟨e0, e1⟩, -, -, -, -⟩ := idx_resident t
  show V c main_v3 (((cfg0.win 8).blk t).view.emb (ix2 (0 : Fin 1) e)) = _
  refine congrArg (V c main_v3) (funext fun a => Fin.ext ?_)
  match a with
  | ⟨0, _⟩ => show win0_8.index t (0 : Fin 2) * 1 + 1 * 0 = 0; omega
  | ⟨1, _⟩ => show win0_8.index t (1 : Fin 2) * 2048 + 1 * e.val = e.val; omega

theorem blk9 (c : Dev nD) (t : Fin cfg0.N) (e : Fin 2048) :
    iblk0 V c 9 t (ix2 (0 : Fin 1) e) = V c main_v1 (ix2 (0 : Fin 1) e) := by
  obtain ⟨-, -, -, -, ⟨e0, e1⟩, -, -, -⟩ := idx_resident t
  show V c main_v1 (((cfg0.win 9).blk t).view.emb (ix2 (0 : Fin 1) e)) = _
  refine congrArg (V c main_v1) (funext fun a => Fin.ext ?_)
  match a with
  | ⟨0, _⟩ => show win0_9.index t (0 : Fin 2) * 1 + 1 * 0 = 0; omega
  | ⟨1, _⟩ => show win0_9.index t (1 : Fin 2) * 2048 + 1 * e.val = e.val; omega

theorem blk10 (c : Dev nD) (t : Fin cfg0.N) (e q : Fin 2048) :
    iblk0 V c 10 t (ix2 e q) = V c main_v5 (ix2 e q) := by
  obtain ⟨-, -, -, -, -, ⟨e0, e1⟩, -, -⟩ := idx_resident t
  show V c main_v5 (((cfg0.win 10).blk t).view.emb (ix2 e q)) = _
  refine congrArg (V c main_v5) (funext fun a => Fin.ext ?_)
  match a with
  | ⟨0, _⟩ => show win0_10.index t (0 : Fin 2) * 2048 + 1 * e.val = e.val; omega
  | ⟨1, _⟩ => show win0_10.index t (1 : Fin 2) * 2048 + 1 * q.val = q.val; omega

theorem blk11 (c : Dev nD) (t : Fin cfg0.N) (e q : Fin 2048) :
    iblk0 V c 11 t (ix2 e q) = V c main_v7 (ix2 e q) := by
  obtain ⟨-, -, -, -, -, -, ⟨e0, e1⟩, -⟩ := idx_resident t
  show V c main_v7 (((cfg0.win 11).blk t).view.emb (ix2 e q)) = _
  refine congrArg (V c main_v7) (funext fun a => Fin.ext ?_)
  match a with
  | ⟨0, _⟩ => show win0_11.index t (0 : Fin 2) * 2048 + 1 * e.val = e.val; omega
  | ⟨1, _⟩ => show win0_11.index t (1 : Fin 2) * 2048 + 1 * q.val = q.val; omega

theorem blk12 (c : Dev nD) (t : Fin cfg0.N) (e q : Fin 2048) :
    iblk0 V c 12 t (ix2 e q) = V c main_v9 (ix2 e q) := by
  obtain ⟨-, -, -, -, -, -, -, ⟨e0, e1⟩⟩ := idx_resident t
  show V c main_v9 (((cfg0.win 12).blk t).view.emb (ix2 e q)) = _
  refine congrArg (V c main_v9) (funext fun a => Fin.ext ?_)
  match a with
  | ⟨0, _⟩ => show win0_12.index t (0 : Fin 2) * 2048 + 1 * e.val = e.val; omega
  | ⟨1, _⟩ => show win0_12.index t (1 : Fin 2) * 2048 + 1 * q.val = q.val; omega

theorem emb13 (t : Fin cfg0.N) (p : Fin 32) (q : Fin 2048) :
    ((cfg0.win 13).blk t).view.emb (ix2 p q) = ix2 (rowAt t p) q := by
  obtain ⟨-, -, -, -, -, ⟨e0, e1⟩, -, -, -⟩ := idx_rows t
  refine funext fun a => Fin.ext ?_
  match a with
  | ⟨0, _⟩ => show win0_13.index t (0 : Fin 2) * 32 + 1 * p.val = 32 * t.val + p.val; omega
  | ⟨1, _⟩ => show win0_13.index t (1 : Fin 2) * 2048 + 1 * q.val = q.val; omega

theorem emb14 (t : Fin cfg0.N) (p : Fin 32) (q : Fin 2048) :
    ((cfg0.win 14).blk t).view.emb (ix2 p q) = ix2 (rowAt t p) q := by
  obtain ⟨-, -, -, -, -, -, ⟨e0, e1⟩, -, -⟩ := idx_rows t
  refine funext fun a => Fin.ext ?_
  match a with
  | ⟨0, _⟩ => show win0_14.index t (0 : Fin 2) * 32 + 1 * p.val = 32 * t.val + p.val; omega
  | ⟨1, _⟩ => show win0_14.index t (1 : Fin 2) * 2048 + 1 * q.val = q.val; omega

theorem emb15 (t : Fin cfg0.N) (p : Fin 32) (q : Fin 2048) :
    ((cfg0.win 15).blk t).view.emb (ix2 p q) = ix2 (rowAt t p) q := by
  obtain ⟨-, -, -, -, -, -, -, ⟨e0, e1⟩, -⟩ := idx_rows t
  refine funext fun a => Fin.ext ?_
  match a with
  | ⟨0, _⟩ => show win0_15.index t (0 : Fin 2) * 32 + 1 * p.val = 32 * t.val + p.val; omega
  | ⟨1, _⟩ => show win0_15.index t (1 : Fin 2) * 2048 + 1 * q.val = q.val; omega

theorem emb16 (t : Fin cfg0.N) (p : Fin 32) (q : Fin 2048) :
    ((cfg0.win 16).blk t).view.emb (ix2 p q) = ix2 (rowAt t p) q := by
  obtain ⟨-, -, -, -, -, -, -, -, ⟨e0, e1⟩⟩ := idx_rows t
  refine funext fun a => Fin.ext ?_
  match a with
  | ⟨0, _⟩ => show win0_16.index t (0 : Fin 2) * 32 + 1 * p.val = 32 * t.val + p.val; omega
  | ⟨1, _⟩ => show win0_16.index t (1 : Fin 2) * 2048 + 1 * q.val = q.val; omega

/-! ## The region's entry contents as the step's inputs -/

/-- What the region finds in its thirteen input arrays, in terms of the step's inputs `I`: the eight argument arrays as
    they are, the decay row `−e^td`, the bonus row, and the three weights transposed. -/
structure Entry (c : Dev nD) (I : Spec.Inp) : Prop where
  x : V c main_arg0 = I.x
  sx : V c main_arg4 = I.sx
  sA : V c main_arg1 = I.sA
  sB : V c main_arg2 = I.sB
  sp : V c main_arg3 = I.sp
  tmk : V c main_arg7 = I.tmk
  tmv : V c main_arg8 = I.tmv
  tmr : V c main_arg9 = I.tmr
  ntd : ∀ q : Fin 2048, V c main_v3 (ix2 (0 : Fin 1) q) = -(Ideal.exp (I.td (ix1 q)))
  tf : ∀ q : Fin 2048, V c main_v1 (ix2 (0 : Fin 1) q) = I.tf (ix1 q)
  wk : ∀ e q : Fin 2048, V c main_v5 (ix2 e q) = I.wk (ix2 q e)
  wv : ∀ e q : Fin 2048, V c main_v7 (ix2 e q) = I.wv (ix2 q e)
  wr : ∀ e q : Fin 2048, V c main_v9 (ix2 e q) = I.wr (ix2 q e)

variable {V} {c : Dev nD} {I : Spec.Inp} (H : Entry V c I) (t : Fin cfg0.N) (p : Fin 32) (q : Fin 2048)

include H

theorem rowX : Body0.rowOf (iblk0 V c 0 t) p = fun e => I.x (ix2 (rowAt t p) e) :=
  funext fun e => by unfold Body0.rowOf; rw [blk0, H.x]
theorem rowSX : Body0.rowOf (iblk0 V c 1 t) p = fun e => I.sx (ix2 (rowAt t p) e) :=
  funext fun e => by unfold Body0.rowOf; rw [blk1, H.sx]
theorem rowTMK : Body0.row1 (iblk0 V c 5 t) = fun e => I.tmk (ix2 (0 : Fin 1) e) :=
  funext fun e => by unfold Body0.row1; rw [blk5, H.tmk]
theorem rowTMV : Body0.row1 (iblk0 V c 6 t) = fun e => I.tmv (ix2 (0 : Fin 1) e) :=
  funext fun e => by unfold Body0.row1; rw [blk6, H.tmv]
theorem rowTMR : Body0.row1 (iblk0 V c 7 t) = fun e => I.tmr (ix2 (0 : Fin 1) e) :=
  funext fun e => by unfold Body0.row1; rw [blk7, H.tmr]
theorem colWK : Body0.colOf (iblk0 V c 10 t) q = fun e => I.wk (ix2 q e) :=
  funext fun e => by unfold Body0.colOf; rw [blk10, H.wk]
theorem colWV : Body0.colOf (iblk0 V c 11 t) q = fun e => I.wv (ix2 q e) :=
  funext fun e => by unfold Body0.colOf; rw [blk11, H.wv]
theorem colWR : Body0.colOf (iblk0 V c 12 t) q = fun e => I.wr (ix2 q e) :=
  funext fun e => by unfold Body0.colOf; rw [blk12, H.wr]

/-- The block's key, value and receptance are the step's at the block's row. -/
theorem kB_eq : Body0.kB (iblk0 V c 0 t) (iblk0 V c 1 t) (iblk0 V c 5 t) (iblk0 V c 10 t) p q = Spec.kAt I (rowAt t p) q := by
  unfold Body0.kB Spec.kAt Spec.proj
  rw [rowX H, rowSX H, rowTMK H, colWK H]
theorem vB_eq : Body0.vB (iblk0 V c 0 t) (iblk0 V c 1 t) (iblk0 V c 6 t) (iblk0 V c 11 t) p q = Spec.vAt I (rowAt t p) q := by
  unfold Body0.vB Spec.vAt Spec.proj
  rw [rowX H, rowSX H, rowTMV H, colWV H]
theorem rB_eq : Body0.rB (iblk0 V c 0 t) (iblk0 V c 1 t) (iblk0 V c 7 t) (iblk0 V c 12 t) p q = Spec.rAt I (rowAt t p) q := by
  unfold Body0.rB Spec.rAt Spec.proj
  rw [rowX H, rowSX H, rowTMR H, colWR H]

/-! ## What each point writes back, and the arrays after the region -/

/-- Point `t` writes back block `t` of the new exponent. -/
theorem flushed16 : (dat0 V c).flushed 16 t = ((cfg0.win 16).blk t).view.read (Elt Ideal) (Spec.newP I) := by
  show (cfg0.win 16).cut (grid0.coords t) ((dat0 V c).after 16 t) = _
  rw [after0_16]
  funext j
  obtain ⟨p, q, rfl⟩ : ∃ (p : Fin 32) (q : Fin 2048), j = ix2 p q := ⟨j 0, j 1, eq_ix2 j⟩
  show out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p q)
    = Spec.newP I (((cfg0.win 16).blk t).view.emb (ix2 p q))
  rw [Body0.out16_at, emb16, Spec.newP_ix2, kB_eq H, blk4, blk8, H.sp, H.ntd]
  rfl

/-- Point `t` writes back block `t` of the new numerator. -/
theorem flushed14 : (dat0 V c).flushed 14 t = ((cfg0.win 14).blk t).view.read (Elt Ideal) (Spec.newA I) := by
  show (cfg0.win 14).cut (grid0.coords t) ((dat0 V c).after 14 t) = _
  rw [after0_14]
  funext j
  obtain ⟨p, q, rfl⟩ : ∃ (p : Fin 32) (q : Fin 2048), j = ix2 p q := ⟨j 0, j 1, eq_ix2 j⟩
  show out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p q)
    = Spec.newA I (((cfg0.win 14).blk t).view.emb (ix2 p q))
  rw [Body0.out14_at, emb14, Spec.newA_ix2, kB_eq H, vB_eq H, blk4, blk8, blk2, H.sp, H.ntd, H.sA]
  rfl

/-- Point `t` writes back block `t` of the new denominator. -/
theorem flushed15 : (dat0 V c).flushed 15 t = ((cfg0.win 15).blk t).view.read (Elt Ideal) (Spec.newB I) := by
  show (cfg0.win 15).cut (grid0.coords t) ((dat0 V c).after 15 t) = _
  rw [after0_15]
  funext j
  obtain ⟨p, q, rfl⟩ : ∃ (p : Fin 32) (q : Fin 2048), j = ix2 p q := ⟨j 0, j 1, eq_ix2 j⟩
  show out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p q)
    = Spec.newB I (((cfg0.win 15).blk t).view.emb (ix2 p q))
  rw [Body0.out15_at, emb15, Spec.newB_ix2, kB_eq H, blk4, blk8, blk3, H.sp, H.ntd, H.sB]
  rfl

/-- Point `t` writes back block `t` of the read-out. -/
theorem flushed13 : (dat0 V c).flushed 13 t = ((cfg0.win 13).blk t).view.read (Elt Ideal) (Spec.pre I) := by
  show (cfg0.win 13).cut (grid0.coords t) ((dat0 V c).after 13 t) = _
  rw [after0_13]
  funext j
  obtain ⟨p, q, rfl⟩ : ∃ (p : Fin 32) (q : Fin 2048), j = ix2 p q := ⟨j 0, j 1, eq_ix2 j⟩
  show out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p q)
    = Spec.pre I (((cfg0.win 13).blk t).view.emb (ix2 p q))
  rw [Body0.out13_at, emb13, Spec.pre_ix2, kB_eq H, vB_eq H, rB_eq H, blk9, blk2, blk3, blk4, H.tf, H.sA, H.sB, H.sp]
  rfl

omit H

/-- An index of result 0 is in point `t`'s block iff each coordinate is in the block's range. -/
theorem mem_blk13 (t : Fin cfg0.N) (i : S8192x2048.Idx) :
    i ∈ ((cfg0.win 13).blk t).view.set ↔ ∀ a : Fin 2, win0_13.index t a * S32x2048.size a ≤ (i a).val ∧ (i a).val < win0_13.index t a * S32x2048.size a + S32x2048.size a := by
  show i ∈ ((View.whole main_v12_0).slice (win0_13.rect t)).set ↔ _
  rw [View.set_slice_whole, Rect.mem_set_unit]
  exact Iff.rfl

/-- The 256 blocks tile result 0: row `r` is in the block of point `r / 32`. -/
theorem cover13 (i : S8192x2048.Idx) : ∃ t : Fin cfg0.N, (cfg0.win 13).flush t = true ∧ i ∈ ((cfg0.win 13).blk t).view.set := by
  have hi0 : (i 0).val < 8192 := (i 0).isLt
  have hi1 : (i 1).val < 2048 := (i 1).isLt
  have hN : cfg0.N = 256 := N_0
  obtain ⟨t, ht⟩ : ∃ t : Fin cfg0.N, t.val = (i 0).val / 32 := ⟨⟨(i 0).val / 32, by omega⟩, rfl⟩
  obtain ⟨-, -, -, -, -, ⟨e0, e1⟩, -, -, -⟩ := idx_rows t
  refine ⟨t, flush0_13 t, ?_⟩
  rw [mem_blk13]
  intro a
  match a with
  | ⟨0, _⟩ => show win0_13.index t (0 : Fin 2) * 32 ≤ (i 0).val ∧ (i 0).val < win0_13.index t (0 : Fin 2) * 32 + 32; omega
  | ⟨1, _⟩ => show win0_13.index t (1 : Fin 2) * 2048 ≤ (i 1).val ∧ (i 1).val < win0_13.index t (1 : Fin 2) * 2048 + 2048; omega

/-- Result 0 after the region. -/
theorem final13 (H : Entry V c I) : (dat0 V c).arrAt 13 cfg0.N = Spec.pre I :=
  (dat0 V c).arrAt_eq_of_cover 13 (Spec.pre I) (fun t _ => flushed13 H t) cover13

/-- An index of result 1 is in point `t`'s block iff each coordinate is in the block's range. -/
theorem mem_blk14 (t : Fin cfg0.N) (i : S8192x2048.Idx) :
    i ∈ ((cfg0.win 14).blk t).view.set ↔ ∀ a : Fin 2, win0_14.index t a * S32x2048.size a ≤ (i a).val ∧ (i a).val < win0_14.index t a * S32x2048.size a + S32x2048.size a := by
  show i ∈ ((View.whole main_v12_1).slice (win0_14.rect t)).set ↔ _
  rw [View.set_slice_whole, Rect.mem_set_unit]
  exact Iff.rfl

/-- The 256 blocks tile result 1: row `r` is in the block of point `r / 32`. -/
theorem cover14 (i : S8192x2048.Idx) : ∃ t : Fin cfg0.N, (cfg0.win 14).flush t = true ∧ i ∈ ((cfg0.win 14).blk t).view.set := by
  have hi0 : (i 0).val < 8192 := (i 0).isLt
  have hi1 : (i 1).val < 2048 := (i 1).isLt
  have hN : cfg0.N = 256 := N_0
  obtain ⟨t, ht⟩ : ∃ t : Fin cfg0.N, t.val = (i 0).val / 32 := ⟨⟨(i 0).val / 32, by omega⟩, rfl⟩
  obtain ⟨-, -, -, -, -, -, ⟨e0, e1⟩, -, -⟩ := idx_rows t
  refine ⟨t, flush0_14 t, ?_⟩
  rw [mem_blk14]
  intro a
  match a with
  | ⟨0, _⟩ => show win0_14.index t (0 : Fin 2) * 32 ≤ (i 0).val ∧ (i 0).val < win0_14.index t (0 : Fin 2) * 32 + 32; omega
  | ⟨1, _⟩ => show win0_14.index t (1 : Fin 2) * 2048 ≤ (i 1).val ∧ (i 1).val < win0_14.index t (1 : Fin 2) * 2048 + 2048; omega

/-- Result 1 after the region. -/
theorem final14 (H : Entry V c I) : (dat0 V c).arrAt 14 cfg0.N = Spec.newA I :=
  (dat0 V c).arrAt_eq_of_cover 14 (Spec.newA I) (fun t _ => flushed14 H t) cover14

/-- An index of result 2 is in point `t`'s block iff each coordinate is in the block's range. -/
theorem mem_blk15 (t : Fin cfg0.N) (i : S8192x2048.Idx) :
    i ∈ ((cfg0.win 15).blk t).view.set ↔ ∀ a : Fin 2, win0_15.index t a * S32x2048.size a ≤ (i a).val ∧ (i a).val < win0_15.index t a * S32x2048.size a + S32x2048.size a := by
  show i ∈ ((View.whole main_v12_2).slice (win0_15.rect t)).set ↔ _
  rw [View.set_slice_whole, Rect.mem_set_unit]
  exact Iff.rfl

/-- The 256 blocks tile result 2: row `r` is in the block of point `r / 32`. -/
theorem cover15 (i : S8192x2048.Idx) : ∃ t : Fin cfg0.N, (cfg0.win 15).flush t = true ∧ i ∈ ((cfg0.win 15).blk t).view.set := by
  have hi0 : (i 0).val < 8192 := (i 0).isLt
  have hi1 : (i 1).val < 2048 := (i 1).isLt
  have hN : cfg0.N = 256 := N_0
  obtain ⟨t, ht⟩ : ∃ t : Fin cfg0.N, t.val = (i 0).val / 32 := ⟨⟨(i 0).val / 32, by omega⟩, rfl⟩
  obtain ⟨-, -, -, -, -, -, -, ⟨e0, e1⟩, -⟩ := idx_rows t
  refine ⟨t, flush0_15 t, ?_⟩
  rw [mem_blk15]
  intro a
  match a with
  | ⟨0, _⟩ => show win0_15.index t (0 : Fin 2) * 32 ≤ (i 0).val ∧ (i 0).val < win0_15.index t (0 : Fin 2) * 32 + 32; omega
  | ⟨1, _⟩ => show win0_15.index t (1 : Fin 2) * 2048 ≤ (i 1).val ∧ (i 1).val < win0_15.index t (1 : Fin 2) * 2048 + 2048; omega

/-- Result 2 after the region. -/
theorem final15 (H : Entry V c I) : (dat0 V c).arrAt 15 cfg0.N = Spec.newB I :=
  (dat0 V c).arrAt_eq_of_cover 15 (Spec.newB I) (fun t _ => flushed15 H t) cover15

/-- An index of result 3 is in point `t`'s block iff each coordinate is in the block's range. -/
theorem mem_blk16 (t : Fin cfg0.N) (i : S8192x2048.Idx) :
    i ∈ ((cfg0.win 16).blk t).view.set ↔ ∀ a : Fin 2, win0_16.index t a * S32x2048.size a ≤ (i a).val ∧ (i a).val < win0_16.index t a * S32x2048.size a + S32x2048.size a := by
  show i ∈ ((View.whole main_v12_3).slice (win0_16.rect t)).set ↔ _
  rw [View.set_slice_whole, Rect.mem_set_unit]
  exact Iff.rfl

/-- The 256 blocks tile result 3: row `r` is in the block of point `r / 32`. -/
theorem cover16 (i : S8192x2048.Idx) : ∃ t : Fin cfg0.N, (cfg0.win 16).flush t = true ∧ i ∈ ((cfg0.win 16).blk t).view.set := by
  have hi0 : (i 0).val < 8192 := (i 0).isLt
  have hi1 : (i 1).val < 2048 := (i 1).isLt
  have hN : cfg0.N = 256 := N_0
  obtain ⟨t, ht⟩ : ∃ t : Fin cfg0.N, t.val = (i 0).val / 32 := ⟨⟨(i 0).val / 32, by omega⟩, rfl⟩
  obtain ⟨-, -, -, -, -, -, -, -, ⟨e0, e1⟩⟩ := idx_rows t
  refine ⟨t, flush0_16 t, ?_⟩
  rw [mem_blk16]
  intro a
  match a with
  | ⟨0, _⟩ => show win0_16.index t (0 : Fin 2) * 32 ≤ (i 0).val ∧ (i 0).val < win0_16.index t (0 : Fin 2) * 32 + 32; omega
  | ⟨1, _⟩ => show win0_16.index t (1 : Fin 2) * 2048 ≤ (i 1).val ∧ (i 1).val < win0_16.index t (1 : Fin 2) * 2048 + 2048; omega

/-- Result 3 after the region. -/
theorem final16 (H : Entry V c I) : (dat0 V c).arrAt 16 cfg0.N = Spec.newP I :=
  (dat0 V c).arrAt_eq_of_cover 16 (Spec.newP I) (fun t _ => flushed16 H t) cover16

end Cert.KernelIdeal.Region0

end
-- ==== Proof.Body1.lean ====
/-
  What the second kernel's body leaves in its output block: the product of a block of 1024 read-out rows with the
  transposed output weight, entry `(p, q)` the sum over the 2048 channels.
-/
import proofs.«105133_j6536940224802_2_alg».proof.Proof.Gen.KernelIdeal.Frame
import proofs.«105133_j6536940224802_2_alg».proof.Proof.LibPlainDot
import Idealize.ShloMosaic.Lib.ValueIdx
import Idealize.ShloMosaic.Lib.Pipeline.Value

noncomputable section

namespace Cert.KernelIdeal.Body1

open Cert.KernelIdeal Cert.KernelIdeal.Gen Idealize.ShloMosaic Idealize.ShloMosaic.ValueIdx Idealize.ShloMosaic.TcCoe

theorem hz : (![0, 0] : Fin 2 → Nat) = fun _ => 0 := funext fun a => by fin_cases a <;> rfl

/-- The stored block at `(p, q)`. -/
theorem out2_at (x0 : Vec Ideal S1024x2048 .bf16) (x1 : Vec Ideal S2048x2048 .bf16) (p : Fin 1024) (q : Fin 2048) :
    out1_2 (F := Ideal) x0 x1 (ix2 p q) = ∑ e : Fin 2048, x0 (ix2 p e) * x1 (ix2 e q) := by
  unfold out1_2
  rw [View.canon_unit_zero hz]
  simp only [View.ld_unit_zero (S := S1024x2048) hz, View.ld_unit_zero (S := S2048x2048) hz]
  unfold k1_pay1
  rw [shapeCast_self, shapeCast_self]
  exact Cert.Lib.plain_matmul_zero_apply 1024 2048 2048 none _ _ p q

end Cert.KernelIdeal.Body1

end
-- ==== Proof.Region1.lean ====
/-
  The second region, read as one array.

  The region's grid has eight points. Point t reads rows 1024 t to 1024 t + 1023 of the read-out and the whole
  transposed output weight, and writes the same rows of the result: entry (p, q) of its block is the sum over the
  channels e of the read-out at (1024 t + p, e) times the weight at (e, q). Every row of the result lies in exactly
  the block of the point numbered by the row's quotient by 1024, and every point writes its block back, so the array
  the region leaves is the output of the specification.
-/
import proofs.«105133_j6536940224802_2_alg».proof.Proof.Gen.KernelIdeal.Frame
import proofs.«105133_j6536940224802_2_alg».proof.Proof.Spec
import proofs.«105133_j6536940224802_2_alg».proof.Proof.Body1
import Idealize.ShloMosaic.Lib.ValueIdx
import Idealize.ShloMosaic.Lib.Pipeline.Value

set_option maxRecDepth 16384

noncomputable section

namespace Cert.KernelIdeal.Region1

open Cert.KernelIdeal Cert.KernelIdeal.Gen Idealize.ShloMosaic Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- The printed index maps over the grid: a row window's block index is the point's number on the row axis and zero
    on the channel axis; the resident weight's block index is zero on both. -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

/-- The row of the whole array that row p of point t's block is. -/
def rowAt1 (t : Fin cfg1.N) (p : Fin 1024) : Fin 8192 :=
  ⟨1024 * t.val + p.val, by
    have h1 := t.isLt; have h2 := p.isLt; have hN : cfg1.N = 8 := N_1; show _ < 8192; omega⟩

/-- Point t's block of the read-out is the read-out at the shifted row. -/
theorem blk0 (c : Dev nD) (t : Fin cfg1.N) (p : Fin 1024) (e : Fin 2048) :
    iblk1 V c 0 t (ix2 p e) = V c main_v12_0 (ix2 (rowAt1 t p) e) := by
  obtain ⟨⟨e0, e1⟩, -, -⟩ := idx_facts t
  show V c main_v12_0 (((cfg1.win 0).blk t).view.emb (ix2 p e)) = _
  refine congrArg (V c main_v12_0) (funext fun a => Fin.ext ?_)
  match a with
  | ⟨0, _⟩ => show win1_0.index t (0 : Fin 2) * 1024 + 1 * p.val = 1024 * t.val + p.val; omega
  | ⟨1, _⟩ => show win1_0.index t (1 : Fin 2) * 2048 + 1 * e.val = e.val; omega

/-- Every point's block of the weight is the whole weight. -/
theorem blk1 (c : Dev nD) (t : Fin cfg1.N) (e q : Fin 2048) :
    iblk1 V c 1 t (ix2 e q) = V c main_v11 (ix2 e q) := by
  obtain ⟨-, ⟨e0, e1⟩, -⟩ := idx_facts t
  show V c main_v11 (((cfg1.win 1).blk t).view.emb (ix2 e q)) = _
  refine congrArg (V c main_v11) (funext fun a => Fin.ext ?_)
  match a with
  | ⟨0, _⟩ => show win1_1.index t (0 : Fin 2) * 2048 + 1 * e.val = e.val; omega
  | ⟨1, _⟩ => show win1_1.index t (1 : Fin 2) * 2048 + 1 * q.val = q.val; omega

/-- Entry (p, q) of point t's block of the result is the result's entry at the shifted row. -/
theorem emb2 (t : Fin cfg1.N) (p : Fin 1024) (q : Fin 2048) :
    ((cfg1.win 2).blk t).view.emb (ix2 p q) = ix2 (rowAt1 t p) q := by
  obtain ⟨-, -, ⟨e0, e1⟩⟩ := idx_facts t
  refine funext fun a => Fin.ext ?_
  match a with
  | ⟨0, _⟩ => show win1_2.index t (0 : Fin 2) * 1024 + 1 * p.val = 1024 * t.val + p.val; omega
  | ⟨1, _⟩ => show win1_2.index t (1 : Fin 2) * 2048 + 1 * q.val = q.val; omega

/-- What point t writes back is its block of the specified output, when the region finds the read-out and the
    transposed output weight in its two operands. -/
theorem flushed2 (c : Dev nD) (I : Cert.Spec.Inp) (hP : V c main_v12_0 = Cert.Spec.pre I)
    (hW : ∀ e q : Fin 2048, V c main_v11 (ix2 e q) = I.wo (ix2 q e)) (t : Fin cfg1.N) :
    (dat1 V c).flushed 2 t = ((cfg1.win 2).blk t).view.read (Elt Ideal) (Cert.Spec.rwkv I) := by
  show (cfg1.win 2).cut (grid1.coords t) ((dat1 V c).after 2 t) = _
  rw [after1_2]
  funext j
  obtain ⟨p, q, rfl⟩ : ∃ (p : Fin 1024) (q : Fin 2048), j = ix2 p q := ⟨j 0, j 1, eq_ix2 j⟩
  show out1_2 (iblk1 V c 0 t) (iblk1 V c 1 t) (ix2 p q)
    = Cert.Spec.rwkv I (((cfg1.win 2).blk t).view.emb (ix2 p q))
  rw [Cert.KernelIdeal.Body1.out2_at, emb2, Cert.Spec.rwkv_ix2]
  unfold Cert.Spec.rwkvAt
  refine Finset.sum_congr rfl fun e _ => ?_
  rw [blk0, blk1, hP, hW, Cert.Spec.pre_ix2]

/-- An index of the array is in point t's block iff each coordinate is in the block's range on its axis. -/
theorem mem_blk2 (t : Fin cfg1.N) (i : S8192x2048.Idx) :
    i ∈ ((cfg1.win 2).blk t).view.set ↔ ∀ a : Fin 2, win1_2.index t a * S1024x2048.size a ≤ (i a).val
      ∧ (i a).val < win1_2.index t a * S1024x2048.size a + S1024x2048.size a := by
  show i ∈ ((View.whole main_v13).slice (win1_2.rect t)).set ↔ _
  rw [View.set_slice_whole, Rect.mem_set_unit]
  exact Iff.rfl

/-- Every index of the result is in the block of the point numbered by its row's quotient by 1024, and that point
    writes its block back. -/
theorem cover2 (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  have hN : cfg1.N = 8 := N_1
  obtain ⟨t, ht⟩ : ∃ t : Fin cfg1.N, t.val = (i 0).val / 1024 := ⟨⟨(i 0).val / 1024, by rw [hN]; omega⟩, rfl⟩
  obtain ⟨-, -, ⟨e0, e1⟩⟩ := idx_facts t
  refine ⟨t, flush1_2 t, ?_⟩
  rw [mem_blk2]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 2048 ≤ (i 1).val ∧ (i 1).val < win1_2.index t (1 : Fin 2) * 2048 + 2048
    omega

/-- The array the region leaves is the specified output. -/
theorem final2 (c : Dev nD) (I : Cert.Spec.Inp) (hP : V c main_v12_0 = Cert.Spec.pre I)
    (hW : ∀ e q : Fin 2048, V c main_v11 (ix2 e q) = I.wo (ix2 q e)) :
    (dat1 V c).arrAt 2 cfg1.N = Cert.Spec.rwkv I :=
  (dat1 V c).arrAt_eq_of_cover 2 (Cert.Spec.rwkv I) (fun t _ => flushed2 V c I hP hW t) cover2

end Cert.KernelIdeal.Region1

end
-- ==== Proof.KValue.lean ====
/-
  The idealized kernel's run with its results named.

  Its two regions are chained: the first region's arrays end holding the step's read-out, numerator, denominator and
  exponent of the launch arguments (the host operations before it only reshape, negate an exponential and transpose);
  the second region multiplies the read-out by the transposed output weight. So every weakly fair execution
  terminates with the five results at the time-mix step of the arguments, and the arguments unchanged.
-/
import proofs.«105133_j6536940224802_2_alg».proof.Proof.Gen.KernelIdeal.Frame
import proofs.«105133_j6536940224802_2_alg».proof.Proof.Spec
import proofs.«105133_j6536940224802_2_alg».proof.Proof.KRun
import proofs.«105133_j6536940224802_2_alg».proof.Proof.HostVals
import proofs.«105133_j6536940224802_2_alg».proof.Proof.Region0
import proofs.«105133_j6536940224802_2_alg».proof.Proof.Region1

set_option maxRecDepth 16384

noncomputable section

namespace Cert.KernelIdeal.KValue

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The kernel's argument arrays as the step's inputs. -/
def inp : Spec.Inp :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13)⟩

/-- What the first region finds: the arguments as launched and the host operations' results. -/
theorem entry0 : Region0.Entry (V1 m ρ) c (inp m c) where
  x := HostVals.V1_arg0 m ρ c
  sx := HostVals.V1_arg4 m ρ c
  sA := HostVals.V1_arg1 m ρ c
  sB := HostVals.V1_arg2 m ρ c
  sp := HostVals.V1_arg3 m ρ c
  tmk := HostVals.V1_arg7 m ρ c
  tmv := HostVals.V1_arg8 m ρ c
  tmr := HostVals.V1_arg9 m ρ c
  ntd := HostVals.V1_v3_at m ρ c
  tf := HostVals.V1_v1_at m ρ c
  wk := HostVals.V1_v5_at m ρ c
  wv := HostVals.V1_v7_at m ρ c
  wr := HostVals.V1_v9_at m ρ c

/-- The read-out array the second region finds. -/
theorem V2_pre : V2 m ρ c main_v12_0 = Spec.pre (inp m c) :=
  (W2_arr m ρ c 13).trans (Region0.final13 (entry0 m ρ c))

/-- The transposed output weight the second region finds: no array of the first region. -/
theorem V2_wo (e q : Fin 2048) : V2 m ρ c main_v11 (ix2 e q) = (inp m c).wo (ix2 q e) :=
  (congrFun (W2_of_ne m ρ c main_v11 (by decide)) (ix2 e q)).trans (HostVals.V1_v11_at m ρ c e q)

theorem W3_v13 : W3 m ρ c (Proc.devRef .tc main_v13) = Spec.rwkv (inp m c) :=
  (W3_arr m ρ c 2).trans (Region1.final2 (V2 m ρ) c (inp m c) (V2_pre m ρ c) (V2_wo m ρ c))

theorem W3_v12_1 : W3 m ρ c (Proc.devRef .tc main_v12_1) = Spec.newA (inp m c) :=
  (W3_of_ne m ρ c main_v12_1 (by decide)).trans ((W2_arr m ρ c 14).trans (Region0.final14 (entry0 m ρ c)))

theorem W3_v12_2 : W3 m ρ c (Proc.devRef .tc main_v12_2) = Spec.newB (inp m c) :=
  (W3_of_ne m ρ c main_v12_2 (by decide)).trans ((W2_arr m ρ c 15).trans (Region0.final15 (entry0 m ρ c)))

theorem W3_v12_3 : W3 m ρ c (Proc.devRef .tc main_v12_3) = Spec.newP (inp m c) :=
  (W3_of_ne m ρ c main_v12_3 (by decide)).trans ((W2_arr m ρ c 16).trans (Region0.final16 (entry0 m ρ c)))

/-- The run: the five results at the step of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v13) = Spec.rwkv (inp m c)
      ∧ r.2.mem ((c.tc : Thread nD τ).loc main_v12_1) = Spec.newA (inp m c)
      ∧ r.2.mem ((c.tc : Thread nD τ).loc main_v12_2) = Spec.newB (inp m c)
      ∧ r.2.mem ((c.tc : Thread nD τ).loc main_v12_3) = Spec.newP (inp m c)
      ∧ r.2.mem ((c.tc : Thread nD τ).loc main_arg0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  KRun.run_all m ρ (fun s h c =>
    ⟨(h c _ (mem_uc main_v13 (by decide))).trans (W3_v13 m ρ c),
     (h c _ (mem_uc main_v12_1 (by decide))).trans (W3_v12_1 m ρ c),
     (h c _ (mem_uc main_v12_2 (by decide))).trans (W3_v12_2 m ρ c),
     (h c _ (mem_uc main_v12_3 (by decide))).trans (W3_v12_3 m ρ c),
     (h c _ (mem_uc main_arg0 (by decide))).trans (W3_main_arg0 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c),
     (h c _ (mem_uc main_arg9 (by decide))).trans (W3_main_arg9 m ρ c),
     (h c _ (mem_uc main_arg10 (by decide))).trans (W3_main_arg10 m ρ c),
     (h c _ (mem_uc main_arg11 (by decide))).trans (W3_main_arg11 m ρ c),
     (h c _ (mem_uc main_arg12 (by decide))).trans (W3_main_arg12 m ρ c),
     (h c _ (mem_uc main_arg13 (by decide))).trans (W3_main_arg13 m ρ c)⟩)

end Cert.KernelIdeal.KValue

end
-- ==== Proof.RefSpec.lean ====
/-
  The reference program computes the stated update.

  Every operation of the printed program reads its operands at an index. Composing these reads from a result back to
  the arguments shows, entry by entry, that the four computed results are the arrays the specification names:
  the three projections are the row-by-row sums of the mixed token against a weight's row (the printed transposes
  only swap the two coordinates the sum reads), the clipped receptance is the hard sigmoid, and the two
  re-weightings are the numerator and the normaliser at the common exponent. The literals stay the binary32 words
  the program spells.
-/
import proofs.«105133_j6536940224802_2_alg».proof.Proof.Gen.ReferenceIdeal.Read
import proofs.«105133_j6536940224802_2_alg».proof.Proof.Spec
import Idealize.ShloMosaic.Lib.ValueIdx
import Idealize.ShloMosaic.PureOps.Ideal.Laws

noncomputable section

namespace Cert.RefSpec

open Cert.ReferenceIdeal Cert.ReferenceIdeal.Read Idealize.ShloMosaic Idealize.ShloMosaic.ValueIdx

/-! ### The index each layout operation reads, at an index given by its coordinates -/

section Indices

variable (p : Fin 8192) (q e : Fin 2048)

/-- A row broadcast reads the one row at the same column. -/
theorem idx_v0 : idx_main_v0 (ix2 p e) = ix2 (0 : Fin 1) e :=
  funext fun a => match a with | ⟨0, _⟩ => rfl | ⟨1, _⟩ => rfl
theorem idx_v4 : idx_main_v4 (ix2 p e) = ix2 (0 : Fin 1) e :=
  funext fun a => match a with | ⟨0, _⟩ => rfl | ⟨1, _⟩ => rfl
theorem idx_v7 : idx_main_v7 (ix2 p e) = ix2 (0 : Fin 1) e :=
  funext fun a => match a with | ⟨0, _⟩ => rfl | ⟨1, _⟩ => rfl
theorem idx_v11 : idx_main_v11 (ix2 p e) = ix2 (0 : Fin 1) e :=
  funext fun a => match a with | ⟨0, _⟩ => rfl | ⟨1, _⟩ => rfl
theorem idx_v14 : idx_main_v14 (ix2 p e) = ix2 (0 : Fin 1) e :=
  funext fun a => match a with | ⟨0, _⟩ => rfl | ⟨1, _⟩ => rfl
theorem idx_v18 : idx_main_v18 (ix2 p e) = ix2 (0 : Fin 1) e :=
  funext fun a => match a with | ⟨0, _⟩ => rfl | ⟨1, _⟩ => rfl
theorem idx_v33 : idx_main_v33 (ix2 p e) = ix2 (0 : Fin 1) e :=
  funext fun a => match a with | ⟨0, _⟩ => rfl | ⟨1, _⟩ => rfl
theorem idx_v48 : idx_main_v48 (ix2 p e) = ix2 (0 : Fin 1) e :=
  funext fun a => match a with | ⟨0, _⟩ => rfl | ⟨1, _⟩ => rfl

/-- A vector placed as a one-row matrix is read at the column. -/
theorem idx_v32 : idx_main_v32 (ix2 (0 : Fin 1) e) = ix1 e :=
  funext fun a => match a with | ⟨0, _⟩ => rfl
theorem idx_v47 : idx_main_v47 (ix2 (0 : Fin 1) e) = ix1 e :=
  funext fun a => match a with | ⟨0, _⟩ => rfl

/-- A transpose reads the swapped index. -/
theorem idx_v21 : idx_main_v21 (ix2 e q) = ix2 q e :=
  funext fun a => match a with | ⟨0, _⟩ => rfl | ⟨1, _⟩ => rfl
theorem idx_v23 : idx_main_v23 (ix2 e q) = ix2 q e :=
  funext fun a => match a with | ⟨0, _⟩ => rfl | ⟨1, _⟩ => rfl
theorem idx_v25 : idx_main_v25 (ix2 e q) = ix2 q e :=
  funext fun a => match a with | ⟨0, _⟩ => rfl | ⟨1, _⟩ => rfl
theorem idx_v62 : idx_main_v62 (ix2 e q) = ix2 q e :=
  funext fun a => match a with | ⟨0, _⟩ => rfl | ⟨1, _⟩ => rfl

/-- A product of matrices reads a row of the left factor and a column of the right one. -/
theorem lidx_v22 : lidx_main_v22 (ix2 p q) e = ix2 p e :=
  funext fun a => match a with | ⟨0, _⟩ => rfl | ⟨1, _⟩ => rfl
theorem ridx_v22 : ridx_main_v22 (ix2 p q) e = ix2 e q :=
  funext fun a => match a with | ⟨0, _⟩ => rfl | ⟨1, _⟩ => rfl
theorem lidx_v24 : lidx_main_v24 (ix2 p q) e = ix2 p e :=
  funext fun a => match a with | ⟨0, _⟩ => rfl | ⟨1, _⟩ => rfl
theorem ridx_v24 : ridx_main_v24 (ix2 p q) e = ix2 e q :=
  funext fun a => match a with | ⟨0, _⟩ => rfl | ⟨1, _⟩ => rfl
theorem lidx_v26 : lidx_main_v26 (ix2 p q) e = ix2 p e :=
  funext fun a => match a with | ⟨0, _⟩ => rfl | ⟨1, _⟩ => rfl
theorem ridx_v26 : ridx_main_v26 (ix2 p q) e = ix2 e q :=
  funext fun a => match a with | ⟨0, _⟩ => rfl | ⟨1, _⟩ => rfl
theorem lidx_v63 : lidx_main_v63 (ix2 p q) e = ix2 p e :=
  funext fun a => match a with | ⟨0, _⟩ => rfl | ⟨1, _⟩ => rfl
theorem ridx_v63 : ridx_main_v63 (ix2 p q) e = ix2 e q :=
  funext fun a => match a with | ⟨0, _⟩ => rfl | ⟨1, _⟩ => rfl

end Indices

variable (x0 x1 x2 x3 x4 : (⟨S8192x2048, .f32⟩ : BufTy).Contents (Elt Ideal))
  (x5 x6 : (⟨S2048, .f32⟩ : BufTy).Contents (Elt Ideal))
  (x7 x8 x9 : (⟨S1x2048, .f32⟩ : BufTy).Contents (Elt Ideal))
  (x10 x11 x12 x13 : (⟨S2048x2048, .f32⟩ : BufTy).Contents (Elt Ideal))

/-! ### The mixed tokens -/

theorem mixK_at (p : Fin 8192) (e : Fin 2048) :
    val_main_v6 (F := Ideal) x0 x4 x7 (ix2 p e)
      = Spec.mix (x0 (ix2 p e)) (x4 (ix2 p e)) (x7 (ix2 (0 : Fin 1) e)) := by
  rw [val_main_v6_apply, val_main_v1_apply, val_main_v5_apply, val_main_v0_apply, val_main_v4_apply,
    val_main_v3_apply, val_main_v2_apply, val_main_cst_apply, idx_v0, idx_v4]
  rfl

theorem mixV_at (p : Fin 8192) (e : Fin 2048) :
    val_main_v13 (F := Ideal) x0 x4 x8 (ix2 p e)
      = Spec.mix (x0 (ix2 p e)) (x4 (ix2 p e)) (x8 (ix2 (0 : Fin 1) e)) := by
  rw [val_main_v13_apply, val_main_v8_apply, val_main_v12_apply, val_main_v7_apply, val_main_v11_apply,
    val_main_v10_apply, val_main_v9_apply, val_main_cst_0_apply, idx_v7, idx_v11]
  rfl

theorem mixR_at (p : Fin 8192) (e : Fin 2048) :
    val_main_v20 (F := Ideal) x0 x4 x9 (ix2 p e)
      = Spec.mix (x0 (ix2 p e)) (x4 (ix2 p e)) (x9 (ix2 (0 : Fin 1) e)) := by
  rw [val_main_v20_apply, val_main_v15_apply, val_main_v19_apply, val_main_v14_apply, val_main_v18_apply,
    val_main_v17_apply, val_main_v16_apply, val_main_cst_1_apply, idx_v14, idx_v18]
  rfl

/-! ### The three projections -/

theorem k_at (p : Fin 8192) (q : Fin 2048) :
    val_main_v22 (F := Ideal) x0 x4 x7 x10 (ix2 p q) = Spec.proj x0 x4 x7 x10 p q := by
  rw [val_main_v22_apply]
  unfold Spec.proj Spec.projRow
  refine Finset.sum_congr rfl fun e _ => ?_
  rw [lidx_v22, ridx_v22, val_main_v21_apply, idx_v21, mixK_at]

theorem v_at (p : Fin 8192) (q : Fin 2048) :
    val_main_v24 (F := Ideal) x0 x4 x8 x11 (ix2 p q) = Spec.proj x0 x4 x8 x11 p q := by
  rw [val_main_v24_apply]
  unfold Spec.proj Spec.projRow
  refine Finset.sum_congr rfl fun e _ => ?_
  rw [lidx_v24, ridx_v24, val_main_v23_apply, idx_v23, mixV_at]

theorem r_at (p : Fin 8192) (q : Fin 2048) :
    val_main_v26 (F := Ideal) x0 x4 x9 x12 (ix2 p q) = Spec.proj x0 x4 x9 x12 p q := by
  rw [val_main_v26_apply]
  unfold Spec.proj Spec.projRow
  refine Finset.sum_congr rfl fun e _ => ?_
  rw [lidx_v26, ridx_v26, val_main_v25_apply, idx_v25, mixR_at]

/-! ### The receptance through the hard sigmoid -/

theorem hsig_at (p : Fin 8192) (q : Fin 2048) :
    val_main_v31 (F := Ideal) x0 x4 x9 x12 (ix2 p q) = Spec.hsig (Spec.proj x0 x4 x9 x12 p q) := by
  rw [val_main_v31_apply, val_main_call0_v4_apply, val_main_call0_v3_apply, val_main_cst_5_apply,
    val_main_call0_v2_apply, val_main_call0_v1_apply, val_main_call0_v0_apply, val_main_cst_4_apply,
    val_main_v30_apply, val_main_v29_apply, val_main_cst_3_apply, val_main_v28_apply, val_main_v27_apply,
    val_main_cst_2_apply, r_at]
  rfl

/-! ### The two exponents -/

/-- The state's exponent after the decay. -/
theorem decayed_at (p : Fin 8192) (q : Fin 2048) :
    val_main_v49 (F := Ideal) x3 x5 (ix2 p q) = x3 (ix2 p q) + -(Ideal.exp (x5 (ix1 q))) := by
  rw [val_main_v49_apply, val_main_v48_apply, val_main_v47_apply, val_main_v46_apply, val_main_v45_apply,
    idx_v48, idx_v47]
  rfl

/-- The current token's exponent with the bonus. -/
theorem bonus_at (p : Fin 8192) (q : Fin 2048) :
    val_main_v34 (F := Ideal) x0 x4 x6 x7 x10 (ix2 p q) = x6 (ix1 q) + Spec.proj x0 x4 x7 x10 p q := by
  rw [val_main_v34_apply, val_main_v33_apply, val_main_v32_apply, idx_v33, idx_v32, k_at]
  rfl

/-! ### The stored state -/

theorem newP_at (p : Fin 8192) (q : Fin 2048) :
    val_main_v50 (F := Ideal) x0 x3 x4 x5 x7 x10 (ix2 p q)
      = max (x3 (ix2 p q) + -(Ideal.exp (x5 (ix1 q)))) (Spec.proj x0 x4 x7 x10 p q) := by
  rw [val_main_v50_apply, decayed_at, k_at]
  rfl

theorem newA_at (p : Fin 8192) (q : Fin 2048) :
    val_main_v57 (F := Ideal) x0 x1 x3 x4 x5 x7 x8 x10 x11 (ix2 p q)
      = Spec.num (x3 (ix2 p q) + -(Ideal.exp (x5 (ix1 q)))) (Spec.proj x0 x4 x7 x10 p q) (x1 (ix2 p q))
          (Spec.proj x0 x4 x8 x11 p q) := by
  rw [val_main_v57_apply, val_main_v55_apply, val_main_v56_apply, val_main_v52_apply, val_main_v54_apply,
    val_main_v51_apply, val_main_v53_apply, newP_at, decayed_at, k_at, v_at]
  rfl

theorem newB_at (p : Fin 8192) (q : Fin 2048) :
    val_main_v59 (F := Ideal) x0 x2 x3 x4 x5 x7 x10 (ix2 p q)
      = Spec.den (x3 (ix2 p q) + -(Ideal.exp (x5 (ix1 q)))) (Spec.proj x0 x4 x7 x10 p q) (x2 (ix2 p q)) := by
  rw [val_main_v59_apply, val_main_v58_apply, val_main_v52_apply, val_main_v54_apply,
    val_main_v51_apply, val_main_v53_apply, newP_at, decayed_at, k_at]
  rfl

/-! ### The read-out -/

theorem pre_at (p : Fin 8192) (q : Fin 2048) :
    val_main_v61 (F := Ideal) x0 x1 x2 x3 x4 x6 x7 x8 x9 x10 x11 x12 (ix2 p q)
      = Ideal.div
          (Spec.hsig (Spec.proj x0 x4 x9 x12 p q)
            * Spec.num (x3 (ix2 p q)) (x6 (ix1 q) + Spec.proj x0 x4 x7 x10 p q) (x1 (ix2 p q))
                (Spec.proj x0 x4 x8 x11 p q))
          (Spec.den (x3 (ix2 p q)) (x6 (ix1 q) + Spec.proj x0 x4 x7 x10 p q) (x2 (ix2 p q))) := by
  rw [val_main_v61_apply, val_main_v60_apply, val_main_v44_apply, val_main_v43_apply, val_main_v42_apply,
    val_main_v40_apply, val_main_v41_apply, val_main_v37_apply, val_main_v39_apply, val_main_v36_apply,
    val_main_v38_apply, val_main_v35_apply, hsig_at, bonus_at, v_at]
  rfl

/-! ### The four results -/

theorem ref_newP :
    val_main_v50 (F := Ideal) x0 x3 x4 x5 x7 x10
      = Cert.Spec.newP (⟨x0, x1, x2, x3, x4, x5, x6, x7, x8, x9, x10, x11, x12, x13⟩ : Cert.Spec.Inp) := by
  funext i
  obtain ⟨p, q, rfl⟩ : ∃ (p : Fin 8192) (q : Fin 2048), i = ix2 p q := ⟨i 0, i 1, eq_ix2 i⟩
  rw [Spec.newP_ix2, newP_at]
  rfl

theorem ref_newA :
    val_main_v57 (F := Ideal) x0 x1 x3 x4 x5 x7 x8 x10 x11
      = Cert.Spec.newA (⟨x0, x1, x2, x3, x4, x5, x6, x7, x8, x9, x10, x11, x12, x13⟩ : Cert.Spec.Inp) := by
  funext i
  obtain ⟨p, q, rfl⟩ : ∃ (p : Fin 8192) (q : Fin 2048), i = ix2 p q := ⟨i 0, i 1, eq_ix2 i⟩
  rw [Spec.newA_ix2, newA_at]
  rfl

theorem ref_newB :
    val_main_v59 (F := Ideal) x0 x2 x3 x4 x5 x7 x10
      = Cert.Spec.newB (⟨x0, x1, x2, x3, x4, x5, x6, x7, x8, x9, x10, x11, x12, x13⟩ : Cert.Spec.Inp) := by
  funext i
  obtain ⟨p, q, rfl⟩ : ∃ (p : Fin 8192) (q : Fin 2048), i = ix2 p q := ⟨i 0, i 1, eq_ix2 i⟩
  rw [Spec.newB_ix2, newB_at]
  rfl

theorem ref_rwkv :
    val_main_v63 (F := Ideal) x0 x1 x2 x3 x4 x6 x7 x8 x9 x10 x11 x12 x13
      = Cert.Spec.rwkv (⟨x0, x1, x2, x3, x4, x5, x6, x7, x8, x9, x10, x11, x12, x13⟩ : Cert.Spec.Inp) := by
  funext i
  obtain ⟨p, q, rfl⟩ : ∃ (p : Fin 8192) (q : Fin 2048), i = ix2 p q := ⟨i 0, i 1, eq_ix2 i⟩
  rw [Spec.rwkv_ix2, val_main_v63_apply]
  unfold Spec.rwkvAt
  refine Finset.sum_congr rfl fun e _ => ?_
  rw [lidx_v63, ridx_v63, val_main_v62_apply, idx_v62, pre_at]
  rfl

end Cert.RefSpec

end
-- ==== Proof.RefRun.lean ====
/-
  The reference's run with its four computed results read as the time-mix step of its arguments.
-/
import proofs.«105133_j6536940224802_2_alg».proof.Proof.Gen.ReferenceIdeal.Run
import proofs.«105133_j6536940224802_2_alg».proof.Proof.Gen.ReferenceIdeal.Read
import proofs.«105133_j6536940224802_2_alg».proof.Proof.RefSpec
import proofs.«105133_j6536940224802_2_alg».proof.Proof.Spec

noncomputable section

namespace Cert.RefRun

open Cert.ReferenceIdeal Cert.ReferenceIdeal.Gen Idealize.ShloMosaic Idealize.ShloMosaic.TcCoe Idealize.SL.Sem

/-- The reference's argument arrays as the step's inputs. -/
def inp (m : (ℓ : Loc nD τ sig) → Buf (Elt Ideal) ℓ) (c : Dev nD) : Spec.Inp :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13)⟩

/-- Every weakly fair execution of the reference terminates with its results at the step's new read-out, numerator,
    denominator and exponent, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63) = Spec.rwkv (inp m c)
      ∧ r.2.mem ((c.tc : Thread nD τ).loc main_v57) = Spec.newA (inp m c)
      ∧ r.2.mem ((c.tc : Thread nD τ).loc main_v59) = Spec.newB (inp m c)
      ∧ r.2.mem ((c.tc : Thread nD τ).loc main_v50) = Spec.newP (inp m c)
      ∧ r.2.mem ((c.tc : Thread nD τ).loc main_arg0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => by
    obtain ⟨h0, h1, h2, h3, hrest⟩ := h c
    exact ⟨h0.trans ((Read.val_main_v63_eq m c).trans (RefSpec.ref_rwkv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))),
      h1.trans ((Read.val_main_v57_eq (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg11))).trans (RefSpec.ref_newA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))),
      h2.trans ((Read.val_main_v59_eq (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg10))).trans (RefSpec.ref_newB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))),
      h3.trans ((Read.val_main_v50_eq (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg10))).trans (RefSpec.ref_newP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))),
      hrest⟩)
    (Cert.ReferenceIdeal.Value.run (F := Ideal) m ρ)

end Cert.RefRun

end
-- ==== Proof.lean ====
/-
  The certificate of the RWKV time-mix step: a two-kernel Pallas program against its jnp reference.

  Both programs compute, from the token `x`, the previous token, the running state `(A, B, p)` and the parameters, the
  mixed projections `k`, `v`, `r`, the numerically stable read-out `r · a / b` times `Woᵀ`, and the state
  re-weighted at the exponent `max (p − e^decay) k` (Proof/Spec.lean). On the extended reals the kernel's blockwise
  matrix products and the reference's whole ones are the same sums over the channels, a change of float format is
  the identity, and every other operation is pointwise and spelt alike, so the two runs end at the same arrays:
  no algebraic law beyond reading the sums is needed, and the precondition is not opened.
  The kernel's side: its run with every buffer named (Proof/KRun.lean), the host operations before the first
  region (Proof/HostVals.lean), each region's body at an entry (Proof/Body0.lean, Proof/Body1.lean) and its result
  arrays from the blocks (Proof/Region0.lean, Proof/Region1.lean), chained in Proof/KValue.lean. The reference's
  side: its generated run read operation by operation (Proof/RefSpec.lean, Proof/RefRun.lean).
-/
import proofs.«105133_j6536940224802_2_alg».proof.Defs
import proofs.«105133_j6536940224802_2_alg».proof.Proof.Gen.Kernel
import proofs.«105133_j6536940224802_2_alg».proof.Proof.Gen.Kernel.Skeleton
import proofs.«105133_j6536940224802_2_alg».proof.Proof.Gen.Kernel.Launch
import proofs.«105133_j6536940224802_2_alg».proof.Proof.Gen.Kernel.Points
import proofs.«105133_j6536940224802_2_alg».proof.Proof.Gen.Kernel.Frame
import proofs.«105133_j6536940224802_2_alg».proof.Proof.Gen.KernelIdeal
import proofs.«105133_j6536940224802_2_alg».proof.Proof.Gen.KernelIdeal.Skeleton
import proofs.«105133_j6536940224802_2_alg».proof.Proof.Gen.KernelIdeal.Launch
import proofs.«105133_j6536940224802_2_alg».proof.Proof.Gen.KernelIdeal.Points
import proofs.«105133_j6536940224802_2_alg».proof.Proof.Gen.KernelIdeal.Frame
import proofs.«105133_j6536940224802_2_alg».proof.Proof.Gen.ReferenceIdeal
import proofs.«105133_j6536940224802_2_alg».proof.Proof.Gen.ReferenceIdeal.Run
import proofs.«105133_j6536940224802_2_alg».proof.Proof.Gen.ReferenceIdeal.Read
import proofs.«105133_j6536940224802_2_alg».proof.Proof.Gen.Pre_finite_inputs
import proofs.«105133_j6536940224802_2_alg».proof.Proof.KValue
import proofs.«105133_j6536940224802_2_alg».proof.Proof.RefRun
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- From memories agreeing on the arguments both runs end at the time-mix step of those arguments. -/
theorem algebraic : Cert.algebraic_KernelIdeal_ReferenceIdeal := by
  intro m ρ m' ρ' _ hagree
  refine ⟨fun c => Cert.Spec.rwkv (Cert.KernelIdeal.KValue.inp m c), fun c => Cert.Spec.newA (Cert.KernelIdeal.KValue.inp m c),
    fun c => Cert.Spec.newB (Cert.KernelIdeal.KValue.inp m c), fun c => Cert.Spec.newP (Cert.KernelIdeal.KValue.inp m c),
    fun c => m ((c.tc : Thread Cert.KernelIdeal.nD Cert.KernelIdeal.τ).loc Cert.KernelIdeal.main_arg0),
    Cert.KernelIdeal.KValue.run m ρ, ?_⟩
  refine (θ_run Cert.ReferenceIdeal.defs _ _).mono (fun r h c => ?_) (Cert.RefRun.run m' ρ')
  have hI : Cert.RefRun.inp m' c = Cert.KernelIdeal.KValue.inp m c := by
    obtain ⟨a0, a1, a2, a3, a4, a5, a6, a7, a8, a9, a10, a11, a12, a13⟩ := hagree c
    unfold Cert.RefRun.inp Cert.KernelIdeal.KValue.inp
    rw [a0, a1, a2, a3, a4, a5, a6, a7, a8, a9, a10, a11, a12, a13]
  obtain ⟨h0, h1, h2, h3, h4, hrest⟩ := h c
  rw [hI] at h0 h1 h2 h3
  exact ⟨h0, h1, h2, h3, h4.trans (hagree c).1, hrest⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
